-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x64x128 : Shape := ⟨4, ![4, 8, 64, 128]⟩
abbrev S128x640 : Shape := ⟨2, ![128, 640]⟩
abbrev S128 : Shape := ⟨1, ![128]⟩
abbrev S128x128 : Shape := ⟨2, ![128, 128]⟩
abbrev S_ : Shape := ⟨0, ![]⟩

class Facts : Prop where
  bcast_S_S4x8x64x128 : S_.BroadcastsInDim S4x8x64x128 (![] : Fin 0 → Fin S4x8x64x128.rank)
  reducesTo_S4x8x64x128_S_d0_1_2_3 : S4x8x64x128.ReducesTo [0, 1, 2, 3] S_
  h_S_ : 0 < S_.numel
  bcast_S_S128x640 : S_.BroadcastsInDim S128x640 (![] : Fin 0 → Fin S128x640.rank)
  reducesTo_S128x640_S_d0_1 : S128x640.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128 .f32) (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S4x8x64x128 .f32) (main_arg1 : FVec F S128x640 .f32) (main_arg2 : FVec F S128 .f32) (main_arg3 : FVec F S128 .f32) (main_arg4 : FVec F S128 .f32) (main_arg5 : FVec F S128 .f32) (main_arg6 : FVec F S128x128 .f32) (main_arg7 : FVec F S128 .f32) : IVec S_ 1 :=
  let main_v0 : FVec F S4x8x64x128 .f32 := Host.absf main_arg0
  let main_cst : FVec F S_ .f32 := constant S_ .f32 0x7F800000#32
  let main_v1 : FVec F S4x8x64x128 .f32 := broadcastInDim S4x8x64x128 ![] bcast_S_S4x8x64x128 main_cst
  let main_v2 : IVec S4x8x64x128 1 := cmpf .olt main_v0 main_v1
  let main_c : IVec S_ 1 := constantI S_ 1 1#1
  let main_v3 : IVec S_ 1 := (fun x v => Host.reduce IntOp.andi x v reducesTo_S4x8x64x128_S_d0_1_2_3 h_S_) main_v2 main_c
  let main_v4 : FVec F S128x640 .f32 := Host.absf main_arg1
  let main_cst_0 : FVec F S_ .f32 := constant S_ .f32 0x7F800000#32
  let main_v5 : FVec F S128x640 .f32 := broadcastInDim S128x640 ![] bcast_S_S128x640 main_cst_0
  let main_v6 : IVec S128x640 1 := cmpf .olt main_v4 main_v5
  let main_c_1 : IVec S_ 1 := constantI S_ 1 1#1
  let main_v7 : IVec S_ 1 := (fun x v => Host.reduce IntOp.andi x v reducesTo_S128x640_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S4x8x64x128 : Shape := ⟨4, ![4, 8, 64, 128]⟩
abbrev S128x640 : Shape := ⟨2, ![128, 640]⟩
abbrev S128 : Shape := ⟨1, ![128]⟩
abbrev S128x128 : Shape := ⟨2, ![128, 128]⟩
abbrev S32x64x128 : Shape := ⟨3, ![32, 64, 128]⟩
abbrev S1x128 : Shape := ⟨2, ![1, 128]⟩
abbrev S32x64x64x128 : Shape := ⟨4, ![32, 64, 64, 128]⟩
abbrev S1x64x128 : Shape := ⟨3, ![1, 64, 128]⟩
abbrev S1x64x64x128 : Shape := ⟨4, ![1, 64, 64, 128]⟩
abbrev S64x128 : Shape := ⟨2, ![64, 128]⟩
abbrev S1x64 : Shape := ⟨2, ![1, 64]⟩
abbrev S64x64 : Shape := ⟨2, ![64, 64]⟩
abbrev S64 : Shape := ⟨1, ![64]⟩
abbrev S64x1 : Shape := ⟨2, ![64, 1]⟩
abbrev S64x64x1 : Shape := ⟨3, ![64, 64, 1]⟩
abbrev S64x1x128 : Shape := ⟨3, ![64, 1, 128]⟩
abbrev S64x64x128 : Shape := ⟨3, ![64, 64, 128]⟩
abbrev S1x1x128 : Shape := ⟨3, ![1, 1, 128]⟩
abbrev S4096x128 : Shape := ⟨2, ![4096, 128]⟩
abbrev S4x8x64x64x128 : Shape := ⟨5, ![4, 8, 64, 64, 128]⟩

abbrev nBuf : Space → Nat
  | .hbm => 18
  | .vmem => 11
  | .smem => 0
  | _ => 0

abbrev bufTy : (tb : Table) → Fin (tcTables nBuf tb) → BufTy
  | .hbm, ⟨0, _⟩ => ⟨S4x8x64x128, .f32⟩
  | .hbm, ⟨1, _⟩ => ⟨S128x640, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S32x64x128, .f32⟩
  | .hbm, ⟨9, _⟩ => ⟨S128x640, .bf16⟩
  | .hbm, ⟨10, _⟩ => ⟨S128x128, .bf16⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S32x64x64x128, .f32⟩
  | .hbm, ⟨17, _⟩ => ⟨S4x8x64x64x128, .f32⟩
  | .local _ .vmem, ⟨0, _⟩ => ⟨S1x64x128, .f32⟩
  | .local _ .vmem, ⟨1, _⟩ => ⟨S1x64x128, .f32⟩
  | .local _ .vmem, ⟨2, _⟩ => ⟨S128x640, .bf16⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S128x128, .bf16⟩
  | .local _ .vmem, ⟨8, _⟩ => ⟨S1x128, .f32⟩
  | .local _ .vmem, ⟨9, _⟩ => ⟨S1x64x64x128, .f32⟩
  | .local _ .vmem, ⟨10, _⟩ => ⟨S1x64x64x128, .f32⟩
  | _, _ => ⟨S4x8x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x64x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S4x8x64x128_S32x64x128 : S4x8x64x128.ShapeCasts S32x64x128
  bitsLt_bf16_f32 : FTy.bits .bf16 < FTy.bits .f32
  shapeCasts_S128_S1x128 : S128.ShapeCasts S1x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S128x640_S128x128_0_0 : ∀ a, (![0, 0] : Fin 2 → Nat) a + S128x128.size a ≤ S128x640.size a
  h_S128x128 : 0 < S128x128.numel
  shapeCasts_S128x128_S128x128 : S128x128.ShapeCasts S128x128
  inb_S128x640_S128x128_0_128 : ∀ a, (![0, 128] : Fin 2 → Nat) a + S128x128.size a ≤ S128x640.size a
  inb_S128x640_S128x128_0_256 : ∀ a, (![0, 256] : Fin 2 → Nat) a + S128x128.size a ≤ S128x640.size a
  inb_S128x640_S128x128_0_384 : ∀ a, (![0, 384] : Fin 2 → Nat) a + S128x128.size a ≤ S128x640.size a
  inb_S128x640_S128x128_0_512 : ∀ a, (![0, 512] : Fin 2 → Nat) a + S128x128.size a ≤ S128x640.size a
  reduces_S64x128_S128 : S64x128.Reduces [0] S128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  reduces_S64x128_S64 : S64x128.Reduces [1] S64
  shapeCasts_S64_S64x1 : S64.ShapeCasts S64x1
  broadcasts_S64x1_S64x64 : S64x1.Broadcasts S64x64
  broadcasts_S1x64_S64x64 : S1x64.Broadcasts S64x64
  iota_S64x64_d0_w32 : S64x64.Iotas .tc 32 [0]
  iota_S64x64_d1_w32 : S64x64.Iotas .tc 32 [1]
  natLt_1_32 : 1 < 32
  shapeCasts_S64x64_S64x64x1 : S64x64.ShapeCasts S64x64x1
  shapeCasts_S64x128_S64x1x128 : S64x128.ShapeCasts S64x1x128
  broadcasts_S64x64x1_S64x64x128 : S64x64x1.Broadcasts S64x64x128
  broadcasts_S64x1x128_S64x64x128 : S64x1x128.Broadcasts S64x64x128
  shapeCasts_S64x128_S1x64x128 : S64x128.ShapeCasts S1x64x128
  broadcasts_S1x64x128_S64x64x128 : S1x64x128.Broadcasts S64x64x128
  shapeCasts_S1x128_S1x1x128 : S1x128.ShapeCasts S1x1x128
  broadcasts_S1x1x128_S64x64x128 : S1x1x128.Broadcasts S64x64x128
  shapeCasts_S64x64x128_S4096x128 : S64x64x128.ShapeCasts S4096x128
  inb_S128x128_S128x128_0_0 : ∀ a, (![0, 0] : Fin 2 → Nat) a + S128x128.size a ≤ S128x128.size a
  shapeCasts_S4096x128_S64x64x128 : S4096x128.ShapeCasts S64x64x128
  inb_S1x64x64x128_S1x64x64x128_0_0_0_0 : ∀ a, (![0, 0, 0, 0] : Fin 4 → Nat) a + S1x64x64x128.size a ≤ S1x64x64x128.size a
  h_S1x64x64x128 : 0 < S1x64x64x128.numel
  shapeCasts_S1x64x64x128_S64x64x128 : S1x64x64x128.ShapeCasts S64x64x128
  shapeCasts_S64x64x128_S1x64x64x128 : S64x64x128.ShapeCasts S1x64x64x128
  shapeCasts_S32x64x64x128_S4x8x64x64x128 : S32x64x64x128.ShapeCasts S4x8x64x64x128
  dot_S64x128_S128x128_S64x128_1_1_0_0_n_n_wf : DotDims.WF S64x128 S128x128 S64x128 [1] [1] [0] [0] [] []
  dot_S1x128_S128x128_S1x128_1_1_0_0_n_n_wf : DotDims.WF S1x128 S128x128 S1x128 [1] [1] [0] [0] [] []
  dot_S1x128_S64x128_S1x64_1_1_0_0_n_n_wf : DotDims.WF S1x128 S64x128 S1x64 [1] [1] [0] [0] [] []
  dot_S64x128_S64x128_S64x64_1_1_0_0_n_n_wf : DotDims.WF S64x128 S64x128 S64x64 [1] [1] [0] [0] [] []
  dot_S4096x128_S128x128_S4096x128_1_1_0_0_n_n_wf : DotDims.WF S4096x128 S128x128 S4096x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S32x64x128.size a
  hwx0_0 : ∀ i : grid0.Coords, EltTy.bits .f32 = 32 ∨ (Rect.block (s := S32x64x128) S1x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x640.size a ≤ S128x640.size a
  hwx0_1 : ∀ i : grid0.Coords, EltTy.bits .bf16 = 32 ∨ (Rect.block (s := S128x640) S128x640.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x64x128.size a ≤ S32x64x64x128.size a
  hwx0_8 : ∀ i : grid0.Coords, EltTy.bits .f32 = 32 ∨ (Rect.block (s := S32x64x64x128) S1x64x64x128.size (cc0_transform_8 i) (hinb0_8 i)).WholeWords (EltTy.packing .f32)

variable [Facts₀]

def dot_S64x128_S128x128_S64x128_1_1_0_0_n_n : DotDims S64x128 S128x128 S64x128 where
  lhsContracting := [1]
  rhsContracting := [1]
  lhsNonContracting := [0]
  rhsNonContracting := [0]
  lhsBatch := []
  rhsBatch := []
  wf := dot_S64x128_S128x128_S64x128_1_1_0_0_n_n_wf
def dot_S1x128_S128x128_S1x128_1_1_0_0_n_n : DotDims S1x128 S128x128 S1x128 where
  lhsContracting := [1]
  rhsContracting := [1]
  lhsNonContracting := [0]
  rhsNonContracting := [0]
  lhsBatch := []
  rhsBatch := []
  wf := dot_S1x128_S128x128_S1x128_1_1_0_0_n_n_wf
def dot_S1x128_S64x128_S1x64_1_1_0_0_n_n : DotDims S1x128 S64x128 S1x64 where
  lhsContracting := [1]
  rhsContracting := [1]
  lhsNonContracting := [0]
  rhsNonContracting := [0]
  lhsBatch := []
  rhsBatch := []
  wf := dot_S1x128_S64x128_S1x64_1_1_0_0_n_n_wf
def dot_S64x128_S64x128_S64x64_1_1_0_0_n_n : DotDims S64x128 S64x128 S64x64 where
  lhsContracting := [1]
  rhsContracting := [1]
  lhsNonContracting := [0]
  rhsNonContracting := [0]
  lhsBatch := []
  rhsBatch := []
  wf := dot_S64x128_S64x128_S64x64_1_1_0_0_n_n_wf
def dot_S4096x128_S128x128_S4096x128_1_1_0_0_n_n : DotDims S4096x128 S128x128 S4096x128 where
  lhsContracting := [1]
  rhsContracting := [1]
  lhsNonContracting := [0]
  rhsNonContracting := [0]
  lhsBatch := []
  rhsBatch := []
  wf := dot_S4096x128_S128x128_S4096x128_1_1_0_0_n_n_wf

abbrev win0_0 : Pipeline.Window sig grid0 :=
  Pipeline.Window.ofSpec (Memref.whole main_v0) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x64x64x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x8x64x128 : Shape := ⟨4, ![4, 8, 64, 128]⟩
abbrev S128x640 : Shape := ⟨2, ![128, 640]⟩
abbrev S128 : Shape := ⟨1, ![128]⟩
abbrev S128x128 : Shape := ⟨2, ![128, 128]⟩
abbrev S64x64 : Shape := ⟨2, ![64, 64]⟩
abbrev S_ : Shape := ⟨0, ![]⟩
abbrev S64x64x1 : Shape := ⟨3, ![64, 64, 1]⟩
abbrev S4x8x64x1x128 : Shape := ⟨5, ![4, 8, 64, 1, 128]⟩
abbrev S4x8x1x64x128 : Shape := ⟨5, ![4, 8, 1, 64, 128]⟩
abbrev S4x8x128 : Shape := ⟨3, ![4, 8, 128]⟩
abbrev S4x8x1x128 : Shape := ⟨4, ![4, 8, 1, 128]⟩
abbrev S4x8x1x1x128 : Shape := ⟨5, ![4, 8, 1, 1, 128]⟩
abbrev S1x1x64x64x1 : Shape := ⟨5, ![1, 1, 64, 64, 1]⟩
abbrev S4x8x64x64x128 : Shape := ⟨5, ![4, 8, 64, 64, 128]⟩
abbrev S4x8x64x64x640 : Shape := ⟨5, ![4, 8, 64, 64, 640]⟩
abbrev S1x1x1x1x128 : Shape := ⟨5, ![1, 1, 1, 1, 128]⟩
abbrev S4x8x64x64 : Shape := ⟨4, ![4, 8, 64, 64]⟩
abbrev S4x8x64x64x1 : Shape := ⟨5, ![4, 8, 64, 64, 1]⟩
abbrev S1x1x128 : Shape := ⟨3, ![1, 1, 128]⟩
abbrev S64x64x128 : Shape := ⟨3, ![64, 64, 128]⟩
abbrev S1x1x64x64x128 : Shape := ⟨5, ![1, 1, 64, 64, 128]⟩

abbrev nBuf : Space → Nat
  | .hbm => 84
  | .vmem => 0
  | .smem => 0
  | _ => 0

abbrev bufTy : (tb : Table) → Fin (tcTables nBuf tb) → BufTy
  | .hbm, ⟨0, _⟩ => ⟨S4x8x64x128, .f32⟩
  | .hbm, ⟨1, _⟩ => ⟨S128x640, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S64x64, .i32⟩
  | .hbm, ⟨9, _⟩ => ⟨S64x64, .i32⟩
  | .hbm, ⟨10, _⟩ => ⟨S_, .i32⟩
  | .hbm, ⟨11, _⟩ => ⟨S64x64, .i32⟩
  | .hbm, ⟨12, _⟩ => ⟨S64x64, .i32⟩
  | .hbm, ⟨13, _⟩ => ⟨S64x64, .i1⟩
  | .hbm, ⟨14, _⟩ => ⟨S64x64, .f32⟩
  | .hbm, ⟨15, _⟩ => ⟨S64x64x1, .f32⟩
  | .hbm, ⟨16, _⟩ => ⟨S4x8x64x1x128, .f32⟩
  | .hbm, ⟨17, _⟩ => ⟨S4x8x1x64x128, .f32⟩
  | .hbm, ⟨18, _⟩ => ⟨S_, .f32⟩
  | .hbm, ⟨19, _⟩ => ⟨S4x8x128, .f32⟩
  | .hbm, ⟨20, _⟩ => ⟨S4x8x1x128, .f32⟩
  | .hbm, ⟨21, _⟩ => ⟨S_, .f32⟩
  | .hbm, ⟨22, _⟩ => ⟨S4x8x1x128, .f32⟩
  | .hbm, ⟨23, _⟩ => ⟨S4x8x1x128, .f32⟩
  | .hbm, ⟨24, _⟩ => ⟨S4x8x1x1x128, .f32⟩
  | .hbm, ⟨25, _⟩ => ⟨S1x1x64x64x1, .f32⟩
  | .hbm, ⟨26, _⟩ => ⟨S4x8x64x64x128, .f32⟩
  | .hbm, ⟨27, _⟩ => ⟨S4x8x64x64x128, .f32⟩
  | .hbm, ⟨28, _⟩ => ⟨S4x8x64x64x128, .f32⟩
  | .hbm, ⟨29, _⟩ => ⟨S4x8x64x64x128, .f32⟩
  | .hbm, ⟨30, _⟩ => ⟨S4x8x64x64x128, .f32⟩
  | .hbm, ⟨31, _⟩ => ⟨S1x1x64x64x1, .f32⟩
  | .hbm, ⟨32, _⟩ => ⟨S4x8x64x64x128, .f32⟩
  | .hbm, ⟨33, _⟩ => ⟨S4x8x64x64x128, .f32⟩
  | .hbm, ⟨34, _⟩ => ⟨S4x8x64x64x128, .f32⟩
  | .hbm, ⟨35, _⟩ => ⟨S4x8x64x64x128, .f32⟩
  | .hbm, ⟨36, _⟩ => ⟨S4x8x64x64x640, .f32⟩
  | .hbm, ⟨37, _⟩ => ⟨S4x8x64x64x128, .f32⟩
  | .hbm, ⟨38, _⟩ => ⟨S1x1x1x1x128, .f32⟩
  | .hbm, ⟨39, _⟩ => ⟨S4x8x64x64x128, .f32⟩
  | .hbm, ⟨40, _⟩ => ⟨S4x8x64x64x128, .f32⟩
  | .hbm, ⟨41, _⟩ => ⟨S_, .f32⟩
  | .hbm, ⟨42, _⟩ => ⟨S4x8x64x64, .f32⟩
  | .hbm, ⟨43, _⟩ => ⟨S4x8x64x64x1, .f32⟩
  | .hbm, ⟨44, _⟩ => ⟨S_, .f32⟩
  | .hbm, ⟨45, _⟩ => ⟨S4x8x64x64x1, .f32⟩
  | .hbm, ⟨46, _⟩ => ⟨S4x8x64x64x1, .f32⟩
  | .hbm, ⟨47, _⟩ => ⟨S4x8x64x64x128, .f32⟩
  | .hbm, ⟨48, _⟩ => ⟨S4x8x64x64x128, .f32⟩
  | .hbm, ⟨49, _⟩ => ⟨S4x8x64x64x128, .f32⟩
  | .hbm, ⟨50, _⟩ => ⟨S_, .f32⟩
  | .hbm, ⟨51, _⟩ => ⟨S4x8x64x64, .f32⟩
  | .hbm, ⟨52, _⟩ => ⟨S4x8x64x64x1, .f32⟩
  | .hbm, ⟨53, _⟩ => ⟨S_, .f32⟩
  | .hbm, ⟨54, _⟩ => ⟨S4x8x64x64x1, .f32⟩
  | .hbm, ⟨55, _⟩ => ⟨S4x8x64x64x1, .f32⟩
  | .hbm, ⟨56, _⟩ => ⟨S4x8x64x64x128, .f32⟩
  | .hbm, ⟨57, _⟩ => ⟨S4x8x64x64x128, .f32⟩
  | .hbm, ⟨58, _⟩ => ⟨S_, .f32⟩
  | .hbm, ⟨59, _⟩ => ⟨S4x8x64x64x1, .f32⟩
  | .hbm, ⟨60, _⟩ => ⟨S4x8x64x64x1, .f32⟩
  | .hbm, ⟨61, _⟩ => ⟨S4x8x64x64x1, .f32⟩
  | .hbm, ⟨62, _⟩ => ⟨S4x8x64x64x128, .f32⟩
  | .hbm, ⟨63, _⟩ => ⟨S4x8x64x64x128, .f32⟩
  | .hbm, ⟨64, _⟩ => ⟨S1x1x1x1x128, .f32⟩
  | .hbm, ⟨65, _⟩ => ⟨S4x8x64x64x128, .f32⟩
  | .hbm, ⟨66, _⟩ => ⟨S4x8x64x64x128, .f32⟩
  | .hbm, ⟨67, _⟩ => ⟨S1x1x1x1x128, .f32⟩
  | .hbm, ⟨68, _⟩ => ⟨S4x8x64x64x128, .f32⟩
  | .hbm, ⟨69, _⟩ => ⟨S4x8x64x64x128, .f32⟩
  | .hbm, ⟨70, _⟩ => ⟨S_, .f32⟩
  | .hbm, ⟨71, _⟩ => ⟨S4x8x64x64x128, .f32⟩
  | .hbm, ⟨72, _⟩ => ⟨S4x8x64x64x128, .f32⟩
  | .hbm, ⟨73, _⟩ => ⟨S1x1x128, .f32⟩
  | .hbm, ⟨74, _⟩ => ⟨S64x64x128, .f32⟩
  | .hbm, ⟨75, _⟩ => ⟨S64x64x128, .f32⟩
  | .hbm, ⟨76, _⟩ => ⟨S64x64x128, .f32⟩
  | .hbm, ⟨77, _⟩ => ⟨S1x1x64x64x128, .f32⟩
  | .hbm, ⟨78, _⟩ => ⟨S4x8x64x64x128, .f32⟩
  | .hbm, ⟨79, _⟩ => ⟨S4x8x64x64x128, .f32⟩
  | .hbm, ⟨80, _⟩ => ⟨S4x8x64x64x128, .f32⟩
  | .hbm, ⟨81, _⟩ => ⟨S1x1x1x1x128, .f32⟩
  | .hbm, ⟨82, _⟩ => ⟨S4x8x64x64x128, .f32⟩
  | .hbm, ⟨83, _⟩ => ⟨S4x8x64x64x128, .f32⟩
  | _, _ => ⟨S4x8x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_call0_cst : Ref sig .tc := ⟨.hbm, 70, rfl⟩
abbrev main_call0_v0 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  bcast_S4x8x64x128_S4x8x64x1x128_0_1_2_4 : S4x8x64x128.BroadcastsInDim S4x8x64x1x128 (![0, 1, 2, 4] : Fin 4 → Fin S4x8x64x1x128.rank)
  bcast_S4x8x64x128_S4x8x1x64x128_0_1_3_4 : S4x8x64x128.BroadcastsInDim S4x8x1x64x128 (![0, 1, 3, 4] : Fin 4 → Fin S4x8x1x64x128.rank)
  reducesTo_S4x8x64x128_S4x8x128_d2 : S4x8x64x128.ReducesTo [2] S4x8x128
  h_S_ : 0 < S_.numel
  bcast_S4x8x128_S4x8x1x128_0_1_3 : S4x8x128.BroadcastsInDim S4x8x1x128 (![0, 1, 3] : Fin 3 → Fin S4x8x1x128.rank)
  bcast_S_S4x8x1x128 : S_.BroadcastsInDim S4x8x1x128 (![] : Fin 0 → Fin S4x8x1x128.rank)
  bcast_S4x8x1x128_S4x8x1x1x128_0_1_2_4 : S4x8x1x128.BroadcastsInDim S4x8x1x1x128 (![0, 1, 2, 4] : Fin 4 → Fin S4x8x1x1x128.rank)
  bcast_S64x64x1_S1x1x64x64x1_2_3_4 : S64x64x1.BroadcastsInDim S1x1x64x64x1 (![2, 3, 4] : Fin 3 → Fin S1x1x64x64x1.rank)
  bcast_S4x8x64x1x128_S4x8x64x64x128_0_1_2_3_4 : S4x8x64x1x128.BroadcastsInDim S4x8x64x64x128 (![0, 1, 2, 3, 4] : Fin 5 → Fin S4x8x64x64x128.rank)
  bcast_S1x1x64x64x1_S4x8x64x64x128_0_1_2_3_4 : S1x1x64x64x1.BroadcastsInDim S4x8x64x64x128 (![0, 1, 2, 3, 4] : Fin 5 → Fin S4x8x64x64x128.rank)
  bcast_S4x8x1x64x128_S4x8x64x64x128_0_1_2_3_4 : S4x8x1x64x128.BroadcastsInDim S4x8x64x64x128 (![0, 1, 2, 3, 4] : Fin 5 → Fin S4x8x64x64x128.rank)
  bcast_S4x8x1x1x128_S4x8x64x64x128_0_1_2_3_4 : S4x8x1x1x128.BroadcastsInDim S4x8x64x64x128 (![0, 1, 2, 3, 4] : Fin 5 → Fin S4x8x64x64x128.rank)
  concatenates_S4x8x64x64x128_S4x8x64x64x128_S4x8x64x64x128_S4x8x64x64x128_S4x8x64x64x128_S4x8x64x64x640_d4 : Shape.Concatenates [S4x8x64x64x128, S4x8x64x64x128, S4x8x64x64x128, S4x8x64x64x128, S4x8x64x64x128] S4x8x64x64x640 4
  bcast_S128_S1x1x1x1x128_4 : S128.BroadcastsInDim S1x1x1x1x128 (![4] : Fin 1 → Fin S1x1x1x1x128.rank)
  bcast_S1x1x1x1x128_S4x8x64x64x128_0_1_2_3_4 : S1x1x1x1x128.BroadcastsInDim S4x8x64x64x128 (![0, 1, 2, 3, 4] : Fin 5 → Fin S4x8x64x64x128.rank)
  reducesTo_S4x8x64x64x128_S4x8x64x64_d4 : S4x8x64x64x128.ReducesTo [4] S4x8x64x64
  bcast_S4x8x64x64_S4x8x64x64x1_0_1_2_3 : S4x8x64x64.BroadcastsInDim S4x8x64x64x1 (![0, 1, 2, 3] : Fin 4 → Fin S4x8x64x64x1.rank)
  bcast_S_S4x8x64x64x1 : S_.BroadcastsInDim S4x8x64x64x1 (![] : Fin 0 → Fin S4x8x64x64x1.rank)
  bcast_S4x8x64x64x1_S4x8x64x64x128_0_1_2_3_4 : S4x8x64x64x1.BroadcastsInDim S4x8x64x64x128 (![0, 1, 2, 3, 4] : Fin 5 → Fin S4x8x64x64x128.rank)
  bcast_S_S4x8x64x64x128 : S_.BroadcastsInDim S4x8x64x64x128 (![] : Fin 0 → Fin S4x8x64x64x128.rank)
  bcast_S128_S1x1x128_2 : S128.BroadcastsInDim S1x1x128 (![2] : Fin 1 → Fin S1x1x128.rank)
  bcast_S1x1x128_S64x64x128_0_1_2 : S1x1x128.BroadcastsInDim S64x64x128 (![0, 1, 2] : Fin 3 → Fin S64x64x128.rank)
  bcast_S64x64x1_S64x64x128_0_1_2 : S64x64x1.BroadcastsInDim S64x64x128 (![0, 1, 2] : Fin 3 → Fin S64x64x128.rank)
  bcast_S64x64x128_S1x1x64x64x128_2_3_4 : S64x64x128.BroadcastsInDim S1x1x64x64x128 (![2, 3, 4] : Fin 3 → Fin S1x1x64x64x128.rank)
  bcast_S1x1x64x64x128_S4x8x64x64x128_0_1_2_3_4 : S1x1x64x64x128.BroadcastsInDim S4x8x64x64x128 (![0, 1, 2, 3, 4] : Fin 5 → Fin S4x8x64x64x128.rank)
  dot_S4x8x64x64x640_S128x640_S4x8x64x64x128_4_1_0123_0_n_n_wf : DotDims.WF S4x8x64x64x640 S128x640 S4x8x64x64x128 [4] [1] [0, 1, 2, 3] [0] [] []
  dot_S4x8x64x64x128_S128x128_S4x8x64x64x128_4_1_0123_0_n_n_wf : DotDims.WF S4x8x64x64x128 S128x128 S4x8x64x64x128 [4] [1] [0, 1, 2, 3] [0] [] []

variable [Facts₀]

def dot_S4x8x64x64x640_S128x640_S4x8x64x64x128_4_1_0123_0_n_n : DotDims S4x8x64x64x640 S128x640 S4x8x64x64x128 where
  lhsContracting := [4]
  rhsContracting := [1]
  lhsNonContracting := [0, 1, 2, 3]
  rhsNonContracting := [0]
  lhsBatch := []
  rhsBatch := []
  wf := dot_S4x8x64x64x640_S128x640_S4x8x64x64x128_4_1_0123_0_n_n_wf
def dot_S4x8x64x64x128_S128x128_S4x8x64x64x128_4_1_0123_0_n_n : DotDims S4x8x64x64x128 S128x128 S4x8x64x64x128 where
  lhsContracting := [4]
  rhsContracting := [1]
  lhsNonContracting := [0, 1, 2, 3]
  rhsNonContracting := [0]
  lhsBatch := []
  rhsBatch := []
  wf := dot_S4x8x64x64x128_S128x128_S4x8x64x64x128_4_1_0123_0_n_n_wf

class Facts : Prop extends Facts₀ where

variable [Facts]
-- ==== Proof.Claims.lean ====
/-
  The five claims of the certificate, assembled.  The three programs run and leave their argument arrays unchanged:
  for the two kernels this is the frame of the pipeline, for the reference it is its run with the result dropped.
  The idealized kernel is the kernel's own text read over the extended reals, so nothing was rewritten.  The value
  claim: from memories that agree on the eight argument arrays, the idealized kernel and the idealized reference
  end with one and the same result array, namely the reference's composed function `refOf` of the KERNEL's argument
  arrays.  For the reference this is its own run, with its argument arrays replaced by the kernel's equal ones;
  for the kernel it is the hypothesis `Hk` taken here as given: the kernel's run ends with that array in its result.
-/
import proofs.«154938_j27951647162476_2_alg».proof.Defs
import proofs.«154938_j27951647162476_2_alg».proof.Proof.Gen.Kernel.Frame
import proofs.«154938_j27951647162476_2_alg».proof.Proof.Gen.KernelIdeal.Frame
import proofs.«154938_j27951647162476_2_alg».proof.Proof.Gen.ReferenceIdeal.Read
import proofs.«154938_j27951647162476_2_alg».proof.Proof.Gen.Kernel
import proofs.«154938_j27951647162476_2_alg».proof.Proof.Gen.KernelIdeal
import proofs.«154938_j27951647162476_2_alg».proof.Proof.Gen.ReferenceIdeal
import proofs.«154938_j27951647162476_2_alg».proof.Proof.Gen.Pre_finite_inputs

noncomputable section

namespace Cert.Proof.Claims

open Idealize.ShloMosaic Idealize.SL.Sem

/-- The reference's composed function of the eight argument arrays, applied to the kernel program's argument arrays
    on device `c`: the array both programs end with. -/
def refOf (m : (ℓ : Loc Cert.KernelIdeal.nD Cert.KernelIdeal.τ Cert.KernelIdeal.sig) → Buf (Elt Ideal) ℓ) (c : Dev Cert.KernelIdeal.nD) :
    Cert.ReferenceIdeal.S4x8x64x64x128.Idx → EReal :=
  Cert.ReferenceIdeal.Read.val_main_v65 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))

/-- The kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The value claim, given that the kernel's run ends with `refOf` of its own argument arrays in its result:
    the reference's run ends with its composed function of ITS argument arrays, which are the kernel's. -/
theorem algebraic_of
    (Hk : ∀ (m : (ℓ : Loc Cert.KernelIdeal.nD Cert.KernelIdeal.τ Cert.KernelIdeal.sig) → Buf (Elt Ideal) ℓ) (ρ : Dev Cert.KernelIdeal.nD → PrngReg),
      Cert.Pre_KernelIdeal m →
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
        r.2.mem ((c.tc : Thread Cert.KernelIdeal.nD Cert.KernelIdeal.τ).loc Cert.KernelIdeal.main_v9) = refOf m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))) :
    Cert.algebraic_KernelIdeal_ReferenceIdeal := by
  intro m ρ m' ρ' hpre hagree
  refine ⟨fun c => refOf m c, Hk m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq]
  unfold refOf
  rw [(hagree c).1, (hagree c).2.1, (hagree c).2.2.1, (hagree c).2.2.2.1, (hagree c).2.2.2.2.1, (hagree c).2.2.2.2.2.1, (hagree c).2.2.2.2.2.2.1, (hagree c).2.2.2.2.2.2.2]

/-- The certificate's claim, under the same hypothesis about the kernel's run. -/
theorem claim_of
    (Hk : ∀ (m : (ℓ : Loc Cert.KernelIdeal.nD Cert.KernelIdeal.τ Cert.KernelIdeal.sig) → Buf (Elt Ideal) ℓ) (ρ : Dev Cert.KernelIdeal.nD → PrngReg),
      Cert.Pre_KernelIdeal m →
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
        r.2.mem ((c.tc : Thread Cert.KernelIdeal.nD Cert.KernelIdeal.τ).loc Cert.KernelIdeal.main_v9) = refOf m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))) :
    Cert.Claim :=
  ⟨Cert.Kernel.Gen.facts, Cert.KernelIdeal.Gen.facts, Cert.ReferenceIdeal.Gen.facts, Cert.Pre_finite_inputs.Gen.facts,
    frame_k, frame_ki, frame_ri, preserves, algebraic_of Hk⟩

end Cert.Proof.Claims

end
-- ==== Proof.Finite.lean ====
/-
  From the precondition "every float input is finite" to "every argument array is an array of coerced reals".

  The precondition is a conjunction of eight statements, one per argument array, each saying that at every index the
  absolute value of the entry, `max x (-x)` over the extended reals, lies strictly below `⊤`. An extended real with
  that property is neither `⊥` nor `⊤`, so it is the coercion of a real number; choosing that real at every index gives
  a real array whose coercion is the argument array.
-/
import proofs.«154938_j27951647162476_2_alg».proof.Defs
import proofs.«154938_j27951647162476_2_alg».proof.Proof.Gen.Pre_finite_inputs
import Idealize.ShloMosaic.Lib.ReduceAll
import Idealize.ShloMosaic.Lib.ValueIdx
import Idealize.ShloMosaic.Lib.IdealHost

noncomputable section

namespace Cert.Finite

open Idealize.ShloMosaic Idealize.SL.Sem Idealize.ShloMosaic.ValueIdx

/-- The shape of rank zero has one index. -/
instance : Subsingleton Cert.Pre_finite_inputs.S_.Idx := ⟨fun a b => funext fun d => d.elim0⟩

/-- An extended real whose absolute value lies below `⊤` is a real: `⊥` and `⊤` both have absolute value `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- An array of extended reals whose entries all have absolute value below `⊤` is the coercion of a real array. -/
theorem coe_array_of_abs_lt_top {ι : Type} (v : ι → EReal) (h : ∀ a, max (v a) (-(v a)) < ⊤) :
    ∃ X : ι → ℝ, v = fun a => ((X a : ℝ) : EReal) := by
  choose X hX using fun a => real_of_abs_lt_top (v a) (h a)
  exact ⟨X, funext hX⟩

/-- The pattern of positive infinity denotes `⊤`. -/
theorem ofBits_inf : Ideal.ofBits .f32 0x7F800000#32 = (⊤ : EReal) := by
  simp [Ideal.ofBits, Ideal.ieee]

/-- One conjunct of the precondition read back: if the conjunction over all indices of `|v a| < +∞` is true, then
    `v` is the coercion of a real array. -/
theorem coe_array_of_all {s : Shape} {axes : List (Fin s.rank)} (v : FVec Ideal s .f32)
    (hb : Cert.Pre_finite_inputs.S_.BroadcastsInDim s (![] : Fin 0 → Fin s.rank))
    (init : IVec Cert.Pre_finite_inputs.S_ 1) (h : s.ReducesTo axes Cert.Pre_finite_inputs.S_)
    (hu : 0 < Cert.Pre_finite_inputs.S_.numel)
    (e : Host.reduce IntOp.andi
        (cmpf .olt (Host.absf v)
          (broadcastInDim s ![] hb (constant (F := Ideal) Cert.Pre_finite_inputs.S_ .f32 0x7F800000#32)))
        init h hu ix0 = 1#1) :
    ∃ X : s.Idx → ℝ, (v : s.Idx → EReal) = fun a => ((X a : ℝ) : EReal) := by
  refine coe_array_of_abs_lt_top v fun a => ?_
  have ha := Host.reduce_andi_all _ init h hu ix0 e a
  rw [cmpf_apply, broadcastInDim_scalar_apply, constant_apply, ofBits_inf] at ha
  change BitVec.ofBool (decide (max (v a) (-(v a)) < ⊤)) = 1#1 at ha
  by_contra hn
  simp [hn] at ha

/-- Under the precondition every argument array of the program is the coercion of a real array. -/
theorem args_real
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) :
    (∃ X : Cert.KernelIdeal.S4x8x64x128.Idx → ℝ,
        (m ((c.tc : Thread Cert.KernelIdeal.nD Cert.KernelIdeal.τ).loc Cert.KernelIdeal.main_arg0)
          : Cert.KernelIdeal.S4x8x64x128.Idx → EReal) = fun a => ((X a : ℝ) : EReal))
    ∧ (∃ W1 : Cert.KernelIdeal.S128x640.Idx → ℝ,
        (m ((c.tc : Thread Cert.KernelIdeal.nD Cert.KernelIdeal.τ).loc Cert.KernelIdeal.main_arg1)
          : Cert.KernelIdeal.S128x640.Idx → EReal) = fun a => ((W1 a : ℝ) : EReal))
    ∧ (∃ B1 : Cert.KernelIdeal.S128.Idx → ℝ,
        (m ((c.tc : Thread Cert.KernelIdeal.nD Cert.KernelIdeal.τ).loc Cert.KernelIdeal.main_arg2)
          : Cert.KernelIdeal.S128.Idx → EReal) = fun a => ((B1 a : ℝ) : EReal))
    ∧ (∃ Ga : Cert.KernelIdeal.S128.Idx → ℝ,
        (m ((c.tc : Thread Cert.KernelIdeal.nD Cert.KernelIdeal.τ).loc Cert.KernelIdeal.main_arg3)
          : Cert.KernelIdeal.S128.Idx → EReal) = fun a => ((Ga a : ℝ) : EReal))
    ∧ (∃ Be : Cert.KernelIdeal.S128.Idx → ℝ,
        (m ((c.tc : Thread Cert.KernelIdeal.nD Cert.KernelIdeal.τ).loc Cert.KernelIdeal.main_arg4)
          : Cert.KernelIdeal.S128.Idx → EReal) = fun a => ((Be a : ℝ) : EReal))
    ∧ (∃ Bp : Cert.KernelIdeal.S128.Idx → ℝ,
        (m ((c.tc : Thread Cert.KernelIdeal.nD Cert.KernelIdeal.τ).loc Cert.KernelIdeal.main_arg5)
          : Cert.KernelIdeal.S128.Idx → EReal) = fun a => ((Bp a : ℝ) : EReal))
    ∧ (∃ W2 : Cert.KernelIdeal.S128x128.Idx → ℝ,
        (m ((c.tc : Thread Cert.KernelIdeal.nD Cert.KernelIdeal.τ).loc Cert.KernelIdeal.main_arg6)
          : Cert.KernelIdeal.S128x128.Idx → EReal) = fun a => ((W2 a : ℝ) : EReal))
    ∧ (∃ B2 : Cert.KernelIdeal.S128.Idx → ℝ,
        (m ((c.tc : Thread Cert.KernelIdeal.nD Cert.KernelIdeal.τ).loc Cert.KernelIdeal.main_arg7)
          : Cert.KernelIdeal.S128.Idx → EReal) = fun a => ((B2 a : ℝ) : EReal)) := by
  have h0 := congrFun (h c) ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨e0, e1⟩, e2⟩, e3⟩, e4⟩, e5⟩, e6⟩, e7⟩ := h0
  exact ⟨coe_array_of_all _ _ _ _ _ e0, coe_array_of_all _ _ _ _ _ e1, coe_array_of_all _ _ _ _ _ e2,
    coe_array_of_all _ _ _ _ _ e3, coe_array_of_all _ _ _ _ _ e4, coe_array_of_all _ _ _ _ _ e5,
    coe_array_of_all _ _ _ _ _ e6, coe_array_of_all _ _ _ _ _ e7⟩

end Cert.Finite

end
-- ==== Proof.KerRun.lean ====
/-
  The structural half of the kernel's side over the extended reals: where each block the pipelined region reads
  sits in the argument arrays.

  The program first reshapes the first argument `[4, 8, 64, 128]` to `[32, 64, 128]` (row `t` of the latter is
  row `(t / 8, t % 8)` of the former), converts the two weight matrices to a narrower format (the identity over the
  extended reals) and lays each of the five vectors out as a `[1, 128]` row. The region has 32 grid points; at point
  `t` it reads row `t` of the reshaped first argument and the other seven arrays whole, and writes row `t` of a
  `[32, 64, 64, 128]` array, which the program finally reshapes to `[4, 8, 64, 64, 128]`.

  This file reads each input block at explicit coordinates as an entry of an argument array.
-/
import proofs.«154938_j27951647162476_2_alg».proof.Proof.Gen.KernelIdeal.Frame
import Idealize.ShloMosaic.Lib.Pipeline.Value
import Idealize.ShloMosaic.Lib.ValueLayout
import Idealize.ShloMosaic.Lib.StableHlo.Run
import Idealize.ShloMosaic.Lib.ValueIdx

noncomputable section

namespace Cert.KerRun

open Cert.KernelIdeal Cert.KernelIdeal.Gen Idealize.ShloMosaic Idealize.ShloMosaic.ValueIdx Idealize.SL.Sem
open Idealize.ShloMosaic.Pipeline (Dat)

variable (m : (ℓ : Loc nD τ sig) → Buf (Elt Ideal) ℓ) (ρ : Dev nD → PrngReg) (c : Dev nD) (t : Fin cfg0.N)

/-- The quotient and the remainder of a grid point by eight: the two leading coordinates of its slice. -/
def tb (t : Fin cfg0.N) : Fin 4 := ⟨t.val / 8, by have h := t.isLt; have hN : cfg0.N = 32 := N_0; omega⟩
/-- The remainder. -/
def tn (t : Fin cfg0.N) : Fin 8 := ⟨t.val % 8, by omega⟩

/-! ## The arrays the region finds, as terms of the argument arrays -/

/-- The region's first array is the first argument reshaped to 32 rows. -/
theorem V_v0 : (V m c main_v0 : S32x64x128.Idx → EReal) = shapeCast S32x64x128 (m ((c.tc : Thread nD τ).loc main_arg0) : S4x8x64x128.Idx → EReal) shapeCasts_S4x8x64x128_S32x64x128 := by
  show StableHlo.after hostOps0 (fun b => m (c, b)) (Proc.devRef .tc main_v0) = _
  after_results
  rfl

/-- The region's second array is the second argument: the conversion is the identity over the extended reals. -/
theorem V_v1 : (V m c main_v1 : S128x640.Idx → EReal) = (m ((c.tc : Thread nD τ).loc main_arg1) : S128x640.Idx → EReal) := by
  show StableHlo.after hostOps0 (fun b => m (c, b)) (Proc.devRef .tc main_v1) = _
  after_results
  rfl

/-! ## The input blocks at explicit coordinates -/

/-- The first window's block index at point `t` is `(t, 0, 0)`. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

/-- The second window's block index is `(0, 0)` at every point. -/
theorem idx1 : ∀ t : Fin cfg0.N, win0_1.index t (0 : Fin 2) = 0 ∧ win0_1.index t (1 : Fin 2) = 0 :=
  (by decide +kernel : ∀ t : Fin grid0.N, _)

/-- Window 1 at every point is the second argument. -/
theorem blk1 (f : Fin 128) (k : Fin 640) :
    iblk (F := Ideal) m c 1 t (ix2 f k) = (m ((c.tc : Thread nD τ).loc main_arg1) : S128x640.Idx → EReal) (ix2 f k) := by
  obtain ⟨e0, e1⟩ := idx1 t
  show V m c main_v1 (((cfg0.win 1).blk t).view.emb (ix2 f k)) = _
  rw [V_v1]
  refine congrArg _ ?_
  funext a; apply Fin.ext
  match a with
  | ⟨0, _⟩ => show win0_1.index t (0 : Fin 2) * 128 + 1 * f.val = f.val; omega
  | ⟨1, _⟩ => show win0_1.index t (1 : Fin 2) * 640 + 1 * k.val = k.val; omega

/-- Window 0 at point `t` is row `(t / 8, t % 8)` of the first argument. -/
theorem blk0 (r : Fin 64) (k : Fin 128) :
    iblk (F := Ideal) m c 0 t (ix3 (0 : Fin 1) r k) = (m ((c.tc : Thread nD τ).loc main_arg0) : S4x8x64x128.Idx → EReal) (ix4 (tb t) (tn t) r k) := by
  obtain ⟨e0, e1, e2⟩ := idx0 t
  have ht : t.val < 32 := by have h := t.isLt; have hN : cfg0.N = 32 := N_0; omega
  show V m c main_v0 (((cfg0.win 0).blk t).view.emb (ix3 (0 : Fin 1) r k)) = _
  rw [V_v0]
  refine shapeCast_apply _ _ _ _ ?_
  show (S4x8x64x128.rowMajor (ix4 (tb t) (tn t) r k)).val = (S32x64x128.rowMajor (((cfg0.win 0).blk t).view.emb (ix3 (0 : Fin 1) r k))).val
  rw [Shape.rowMajor_val_four, Shape.rowMajor_val_three]
  show ((t.val / 8 * 8 + t.val % 8) * 64 + r.val) * 128 + k.val = ((win0_0.index t (0 : Fin 3) * 1 + 1 * 0) * 64 + (win0_0.index t (1 : Fin 3) * 64 + 1 * r.val)) * 128 + (win0_0.index t (2 : Fin 3) * 128 + 1 * k.val)
  rw [e0, e1, e2]; omega

/-- The region's array `main_v3` is an argument vector laid out as one row. -/
theorem V_v3 : (V m c main_v3 : S1x128.Idx → EReal) = shapeCast S1x128 (m ((c.tc : Thread nD τ).loc main_arg2) : S128.Idx → EReal) shapeCasts_S128_S1x128 := by
  show StableHlo.after hostOps0 (fun b => m (c, b)) (Proc.devRef .tc main_v3) = _
  after_results
  rfl

/-- Window 2's block index is `(0, 0)` at every point. -/
theorem idx2 : ∀ t : Fin cfg0.N, win0_2.index t (0 : Fin 2) = 0 ∧ win0_2.index t (1 : Fin 2) = 0 :=
  (by decide +kernel : ∀ t : Fin grid0.N, _)

/-- Window 2 at every point is the third argument laid out as one row. -/
theorem blk2 (u : Fin 1) (f : Fin 128) :
    iblk (F := Ideal) m c 2 t (ix2 u f) = (m ((c.tc : Thread nD τ).loc main_arg2) : S128.Idx → EReal) (ix1 f) := by
  obtain ⟨e0, e1⟩ := idx2 t
  have hu := u.isLt
  show V m c main_v3 (((cfg0.win 2).blk t).view.emb (ix2 u f)) = _
  rw [V_v3]
  refine shapeCast_apply _ _ _ _ ?_
  show (S128.rowMajor (ix1 f)).val = (S1x128.rowMajor (((cfg0.win 2).blk t).view.emb (ix2 u f))).val
  rw [Shape.rowMajor_val_one, Shape.rowMajor_val_two]
  show f.val = (win0_2.index t (0 : Fin 2) * 1 + 1 * u.val) * 128 + (win0_2.index t (1 : Fin 2) * 128 + 1 * f.val)
  rw [e0, e1]; omega

/-- The region's array `main_v4` is an argument vector laid out as one row. -/
theorem V_v4 : (V m c main_v4 : S1x128.Idx → EReal) = shapeCast S1x128 (m ((c.tc : Thread nD τ).loc main_arg3) : S128.Idx → EReal) shapeCasts_S128_S1x128 := by
  show StableHlo.after hostOps0 (fun b => m (c, b)) (Proc.devRef .tc main_v4) = _
  after_results
  rfl

/-- Window 3's block index is `(0, 0)` at every point. -/
theorem idx3 : ∀ t : Fin cfg0.N, win0_3.index t (0 : Fin 2) = 0 ∧ win0_3.index t (1 : Fin 2) = 0 :=
  (by decide +kernel : ∀ t : Fin grid0.N, _)

/-- Window 3 at every point is the fourth argument laid out as one row. -/
theorem blk3 (u : Fin 1) (f : Fin 128) :
    iblk (F := Ideal) m c 3 t (ix2 u f) = (m ((c.tc : Thread nD τ).loc main_arg3) : S128.Idx → EReal) (ix1 f) := by
  obtain ⟨e0, e1⟩ := idx3 t
  have hu := u.isLt
  show V m c main_v4 (((cfg0.win 3).blk t).view.emb (ix2 u f)) = _
  rw [V_v4]
  refine shapeCast_apply _ _ _ _ ?_
  show (S128.rowMajor (ix1 f)).val = (S1x128.rowMajor (((cfg0.win 3).blk t).view.emb (ix2 u f))).val
  rw [Shape.rowMajor_val_one, Shape.rowMajor_val_two]
  show f.val = (win0_3.index t (0 : Fin 2) * 1 + 1 * u.val) * 128 + (win0_3.index t (1 : Fin 2) * 128 + 1 * f.val)
  rw [e0, e1]; omega

/-- The region's array `main_v5` is an argument vector laid out as one row. -/
theorem V_v5 : (V m c main_v5 : S1x128.Idx → EReal) = shapeCast S1x128 (m ((c.tc : Thread nD τ).loc main_arg4) : S128.Idx → EReal) shapeCasts_S128_S1x128 := by
  show StableHlo.after hostOps0 (fun b => m (c, b)) (Proc.devRef .tc main_v5) = _
  after_results
  rfl

/-- Window 4's block index is `(0, 0)` at every point. -/
theorem idx4 : ∀ t : Fin cfg0.N, win0_4.index t (0 : Fin 2) = 0 ∧ win0_4.index t (1 : Fin 2) = 0 :=
  (by decide +kernel : ∀ t : Fin grid0.N, _)

/-- Window 4 at every point is the fifth argument laid out as one row. -/
theorem blk4 (u : Fin 1) (f : Fin 128) :
    iblk (F := Ideal) m c 4 t (ix2 u f) = (m ((c.tc : Thread nD τ).loc main_arg4) : S128.Idx → EReal) (ix1 f) := by
  obtain ⟨e0, e1⟩ := idx4 t
  have hu := u.isLt
  show V m c main_v5 (((cfg0.win 4).blk t).view.emb (ix2 u f)) = _
  rw [V_v5]
  refine shapeCast_apply _ _ _ _ ?_
  show (S128.rowMajor (ix1 f)).val = (S1x128.rowMajor (((cfg0.win 4).blk t).view.emb (ix2 u f))).val
  rw [Shape.rowMajor_val_one, Shape.rowMajor_val_two]
  show f.val = (win0_4.index t (0 : Fin 2) * 1 + 1 * u.val) * 128 + (win0_4.index t (1 : Fin 2) * 128 + 1 * f.val)
  rw [e0, e1]; omega

/-- The region's array `main_v6` is an argument vector laid out as one row. -/
theorem V_v6 : (V m c main_v6 : S1x128.Idx → EReal) = shapeCast S1x128 (m ((c.tc : Thread nD τ).loc main_arg5) : S128.Idx → EReal) shapeCasts_S128_S1x128 := by
  show StableHlo.after hostOps0 (fun b => m (c, b)) (Proc.devRef .tc main_v6) = _
  after_results
  rfl

/-- Window 5's block index is `(0, 0)` at every point. -/
theorem idx5 : ∀ t : Fin cfg0.N, win0_5.index t (0 : Fin 2) = 0 ∧ win0_5.index t (1 : Fin 2) = 0 :=
  (by decide +kernel : ∀ t : Fin grid0.N, _)

/-- Window 5 at every point is the sixth argument laid out as one row. -/
theorem blk5 (u : Fin 1) (f : Fin 128) :
    iblk (F := Ideal) m c 5 t (ix2 u f) = (m ((c.tc : Thread nD τ).loc main_arg5) : S128.Idx → EReal) (ix1 f) := by
  obtain ⟨e0, e1⟩ := idx5 t
  have hu := u.isLt
  show V m c main_v6 (((cfg0.win 5).blk t).view.emb (ix2 u f)) = _
  rw [V_v6]
  refine shapeCast_apply _ _ _ _ ?_
  show (S128.rowMajor (ix1 f)).val = (S1x128.rowMajor (((cfg0.win 5).blk t).view.emb (ix2 u f))).val
  rw [Shape.rowMajor_val_one, Shape.rowMajor_val_two]
  show f.val = (win0_5.index t (0 : Fin 2) * 1 + 1 * u.val) * 128 + (win0_5.index t (1 : Fin 2) * 128 + 1 * f.val)
  rw [e0, e1]; omega

/-- The region's seventh array is the seventh argument: the conversion is the identity over the extended reals. -/
theorem V_v2 : (V m c main_v2 : S128x128.Idx → EReal) = (m ((c.tc : Thread nD τ).loc main_arg6) : S128x128.Idx → EReal) := by
  show StableHlo.after hostOps0 (fun b => m (c, b)) (Proc.devRef .tc main_v2) = _
  after_results
  rfl

/-- The seventh window's block index is `(0, 0)` at every point. -/
theorem idx6 : ∀ t : Fin cfg0.N, win0_6.index t (0 : Fin 2) = 0 ∧ win0_6.index t (1 : Fin 2) = 0 :=
  (by decide +kernel : ∀ t : Fin grid0.N, _)

/-- Window 6 at every point is the seventh argument. -/
theorem blk6 (d f : Fin 128) :
    iblk (F := Ideal) m c 6 t (ix2 d f) = (m ((c.tc : Thread nD τ).loc main_arg6) : S128x128.Idx → EReal) (ix2 d f) := by
  obtain ⟨e0, e1⟩ := idx6 t
  show V m c main_v2 (((cfg0.win 6).blk t).view.emb (ix2 d f)) = _
  rw [V_v2]
  refine congrArg _ ?_
  funext a; apply Fin.ext
  match a with
  | ⟨0, _⟩ => show win0_6.index t (0 : Fin 2) * 128 + 1 * d.val = d.val; omega
  | ⟨1, _⟩ => show win0_6.index t (1 : Fin 2) * 128 + 1 * f.val = f.val; omega

/-- The region's array `main_v7` is an argument vector laid out as one row. -/
theorem V_v7 : (V m c main_v7 : S1x128.Idx → EReal) = shapeCast S1x128 (m ((c.tc : Thread nD τ).loc main_arg7) : S128.Idx → EReal) shapeCasts_S128_S1x128 := by
  show StableHlo.after hostOps0 (fun b => m (c, b)) (Proc.devRef .tc main_v7) = _
  after_results
  rfl

/-- Window 7's block index is `(0, 0)` at every point. -/
theorem idx7 : ∀ t : Fin cfg0.N, win0_7.index t (0 : Fin 2) = 0 ∧ win0_7.index t (1 : Fin 2) = 0 :=
  (by decide +kernel : ∀ t : Fin grid0.N, _)

/-- Window 7 at every point is the eighth argument laid out as one row. -/
theorem blk7 (u : Fin 1) (f : Fin 128) :
    iblk (F := Ideal) m c 7 t (ix2 u f) = (m ((c.tc : Thread nD τ).loc main_arg7) : S128.Idx → EReal) (ix1 f) := by
  obtain ⟨e0, e1⟩ := idx7 t
  have hu := u.isLt
  show V m c main_v7 (((cfg0.win 7).blk t).view.emb (ix2 u f)) = _
  rw [V_v7]
  refine shapeCast_apply _ _ _ _ ?_
  show (S128.rowMajor (ix1 f)).val = (S1x128.rowMajor (((cfg0.win 7).blk t).view.emb (ix2 u f))).val
  rw [Shape.rowMajor_val_one, Shape.rowMajor_val_two]
  show f.val = (win0_7.index t (0 : Fin 2) * 1 + 1 * u.val) * 128 + (win0_7.index t (1 : Fin 2) * 128 + 1 * f.val)
  rw [e0, e1]; omega

end Cert.KerRun

end
-- ==== Proof.Spec.lean ====
/-
  The mathematics of the two programs, over the reals, for ONE slice (one pair of the two leading coordinates):
  a 64 × 128 matrix `x`, lifted to a 64 × 64 × 640 tensor of five blocks
  `[x i · e i j, x i, x j, mean · e i j, mean]` (`e` the diagonal mask, `mean` the column means of `x`),
  contracted against `W1`, layer-normalised over the last axis, passed through `max · 0`, given a diagonal bias
  and contracted against `W2`.

  `outRef` spells this as written: the five blocks contracted one after the other, the mean and the variance
  of each row of 128 taken by summing.  `outKer` spells the same function through its rank structure:
  `h i j = e i j · diagA i + rowP i + rowQ j`, the mean and the mean of squares of a row read off the row sums
  of `rowP`, `rowQ`, `diagA` and one cross term, the variance as `E h² − (E h)²`, the quotient by the standard
  deviation as a product with its inverse.  No program is mentioned here.
-/
import Mathlib

noncomputable section

namespace Cert.Spec

open Finset BigOperators

/-- The diagonal mask. -/
def e (i j : Fin 64) : ℝ := if i = j then 1 else 0

/-- Column `k` of the `s`-th block of 128 among 640 columns. -/
def col (s : Fin 5) (k : Fin 128) : Fin 640 := ⟨128 * s.val + k.val, by omega⟩

/-- A sum over 640 columns is the sum of its five blocks of 128. -/
theorem sum_fin640 {M : Type*} [AddCommMonoid M] (g : Fin 640 → M) :
    ∑ k : Fin 640, g k
      = (∑ k : Fin 128, g (col 0 k)) + (∑ k : Fin 128, g (col 1 k)) + (∑ k : Fin 128, g (col 2 k))
        + (∑ k : Fin 128, g (col 3 k)) + (∑ k : Fin 128, g (col 4 k)) := by
  have h5 : ∀ g' : Fin (128 + (128 + (128 + (128 + 128)))) → M, ∑ k, g' k
      = (∑ k : Fin 128, g' (Fin.castAdd _ k))
        + ((∑ k : Fin 128, g' (Fin.natAdd 128 (Fin.castAdd _ k)))
          + ((∑ k : Fin 128, g' (Fin.natAdd 128 (Fin.natAdd 128 (Fin.castAdd _ k))))
            + ((∑ k : Fin 128, g' (Fin.natAdd 128 (Fin.natAdd 128 (Fin.natAdd 128 (Fin.castAdd _ k)))))
              + (∑ k : Fin 128, g' (Fin.natAdd 128 (Fin.natAdd 128 (Fin.natAdd 128 (Fin.natAdd 128 k)))))))) := by
    intro g'
    rw [Fin.sum_univ_add, Fin.sum_univ_add, Fin.sum_univ_add, Fin.sum_univ_add]
  have := h5 g
  rw [this]
  simp only [add_assoc]
  rfl

section
variable (x : Fin 64 → Fin 128 → ℝ) (W1 : Fin 128 → Fin 640 → ℝ) (b1 ga be bp : Fin 128 → ℝ)
  (W2 : Fin 128 → Fin 128 → ℝ) (b2 : Fin 128 → ℝ) (eps : ℝ)

/-- The mean of column `k` over the 64 rows. -/
def mean (k : Fin 128) : ℝ := (∑ r : Fin 64, x r k) / 64

/-! ### As written: five blocks, statistics by summing -/

def hRef (i j : Fin 64) (f : Fin 128) : ℝ :=
  ((∑ k : Fin 128, (x i k * e i j) * W1 f (col 0 k)) + (∑ k : Fin 128, x i k * W1 f (col 1 k))
    + (∑ k : Fin 128, x j k * W1 f (col 2 k)) + (∑ k : Fin 128, (mean x k * e i j) * W1 f (col 3 k))
    + (∑ k : Fin 128, mean x k * W1 f (col 4 k))) + b1 f

def muRef (i j : Fin 64) : ℝ := (∑ f : Fin 128, hRef x W1 b1 i j f) / 128

def varRef (i j : Fin 64) : ℝ :=
  (∑ f : Fin 128, (hRef x W1 b1 i j f - muRef x W1 b1 i j) * (hRef x W1 b1 i j f - muRef x W1 b1 i j)) / 128

def actRef (i j : Fin 64) (f : Fin 128) : ℝ :=
  max ((hRef x W1 b1 i j f - muRef x W1 b1 i j) / Real.sqrt (varRef x W1 b1 i j + eps) * ga f + be f) 0
    + bp f * e i j

def outRef (i j : Fin 64) (d : Fin 128) : ℝ :=
  (∑ f : Fin 128, actRef x W1 b1 ga be bp eps i j f * W2 d f) + b2 d

/-! ### Through the rank structure -/

def projA (i : Fin 64) (f : Fin 128) : ℝ := ∑ k : Fin 128, x i k * W1 f (col 0 k)
def projB (i : Fin 64) (f : Fin 128) : ℝ := ∑ k : Fin 128, x i k * W1 f (col 1 k)
def projC (i : Fin 64) (f : Fin 128) : ℝ := ∑ k : Fin 128, x i k * W1 f (col 2 k)
def projD (f : Fin 128) : ℝ := ∑ k : Fin 128, mean x k * W1 f (col 3 k)
def projE (f : Fin 128) : ℝ := ∑ k : Fin 128, mean x k * W1 f (col 4 k)

def rowP (i : Fin 64) (f : Fin 128) : ℝ := projB x W1 i f + projE x W1 f + b1 f
def rowQ (j : Fin 64) (f : Fin 128) : ℝ := projC x W1 j f
def diagA (i : Fin 64) (f : Fin 128) : ℝ := projA x W1 i f + projD x W1 f

def muKer (i j : Fin 64) : ℝ :=
  ((∑ f : Fin 128, rowP x W1 b1 i f) + (∑ f : Fin 128, 1 * rowQ x W1 j f)) * (1 / 128)
    + e i j * ((∑ f : Fin 128, diagA x W1 i f) * (1 / 128))

def eh2Ker (i j : Fin 64) : ℝ :=
  ((∑ f : Fin 128, rowP x W1 b1 i f * rowP x W1 b1 i f)
      + 2 * (∑ f : Fin 128, rowP x W1 b1 i f * rowQ x W1 j f)
      + (∑ f : Fin 128, 1 * (rowQ x W1 j f * rowQ x W1 j f))) * (1 / 128)
    + e i j * ((2 * (∑ f : Fin 128, diagA x W1 i f * (rowP x W1 b1 i f + rowQ x W1 i f))
      + (∑ f : Fin 128, diagA x W1 i f * diagA x W1 i f)) * (1 / 128))

def varKer (i j : Fin 64) : ℝ := eh2Ker x W1 b1 i j - muKer x W1 b1 i j * muKer x W1 b1 i j

def hKer (i j : Fin 64) (f : Fin 128) : ℝ := e i j * diagA x W1 i f + rowP x W1 b1 i f + rowQ x W1 j f

def actKer (i j : Fin 64) (f : Fin 128) : ℝ :=
  max ((hKer x W1 b1 i j f - muKer x W1 b1 i j) * (Real.sqrt (varKer x W1 b1 i j + eps))⁻¹ * ga f + be f) 0
    + bp f * e i j

def outKer (i j : Fin 64) (d : Fin 128) : ℝ :=
  (∑ f : Fin 128, actKer x W1 b1 ga be bp eps i j f * W2 d f) + b2 d

end

/-- A finite sum of coerced reals is the coerced sum. -/
theorem coe_sum {ι : Type*} (s : Finset ι) (a : ι → ℝ) :
    (∑ k ∈ s, ((a k : ℝ) : EReal)) = ((∑ k ∈ s, a k : ℝ) : EReal) := by
  classical
  induction s using Finset.induction_on with
  | empty => simp
  | insert a' s ha ih => rw [Finset.sum_insert ha, Finset.sum_insert ha, ih, EReal.coe_add]

end Cert.Spec

end
-- ==== Proof.Consts.lean ====
/-
  The float literals of the two programs as the extended reals their patterns denote: zero, 64, 128, 1/128, 2,
  the small positive number added under the square root, and the 16-bit patterns of one and zero.
-/
import Idealize.ShloMosaic.PureOps.Ideal

noncomputable section

namespace Cert.Consts

open Idealize.ShloMosaic

/-- The positive dyadic the pattern `0x3727C5AC` denotes: 10995116 / 2^40, about 1e-5. -/
def epsR : ℝ := 10995116 / 1099511627776

theorem epsR_pos : 0 < epsR := by unfold epsR; norm_num

theorem ofBits_zero : Ideal.ofBits .f32 0x00000000#32 = 0 := by
  simp [Ideal.ofBits, Ideal.ieee]

theorem ofBits_64 : Ideal.ofBits .f32 0x42800000#32 = ((64 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_inv128 : Ideal.ofBits .f32 0x3C000000#32 = ((1 / 128 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_eps : Ideal.ofBits .f32 0x3727C5AC#32 = ((epsR : ℝ) : EReal) := by
  unfold epsR
  simp [Ideal.ofBits, Ideal.ieee, -EReal.coe_mul]; norm_num

theorem ofBits_one_bf16 : Ideal.ofBits .bf16 0x3F80#16 = ((1 : ℝ) : EReal) := by
  simp [Ideal.ofBits, Ideal.ieee, -EReal.coe_mul]; norm_num

theorem ofBits_zero_bf16 : Ideal.ofBits .bf16 0x0000#16 = ((0 : ℝ) : EReal) := by
  simp [Ideal.ofBits, Ideal.ieee]

end Cert.Consts

end
-- ==== Proof.KerLayout.lean ====
/-
  Layout operations of fixed small shapes read at an index given by coordinates, and a sum along one axis of a
  64 × 128 array as a plain finite sum.  Every statement says which entry of the operand an entry of the result is:
  a column [64] laid as [64, 1] and spread along rows to [64, 64]; a matrix [64, 64] given a trailing unit axis and
  spread along the last axis to [64, 64, 128]; a matrix [64, 128] given a middle or leading unit axis and spread to
  [64, 64, 128]; a row [1, 1, 128] spread to [64, 64, 128]; and the row-major regrouping of [64, 64, 128] as
  [4096, 128], where row `p * 64 + q` is the pair `(p, q)`.
-/
import Idealize.ShloMosaic.Lib.ValueLayout
import Idealize.ShloMosaic.PureOps.Ideal.Laws

namespace Cert.KerLayout

open Idealize.ShloMosaic Idealize.ShloMosaic.ValueIdx

variable {α : Type}

/-- A column [64] cast to [64, 1] reads, at (p, u), the operand at p. -/
theorem cast_a_a1 (x : (⟨1, ![64]⟩ : Shape).Idx → α) (h : (⟨1, ![64]⟩ : Shape).ShapeCasts ⟨2, ![64, 1]⟩)
    (p : Fin 64) (u : Fin 1) : shapeCast ⟨2, ![64, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column [64, 1] broadcast to [64, 64] reads, at (p, q), the operand at (p, 0). -/
theorem bcast_a1_ab (v : (⟨2, ![64, 1]⟩ : Shape).Idx → α) (h : (⟨2, ![64, 1]⟩ : Shape).Broadcasts ⟨2, ![64, 64]⟩)
    (p q : Fin 64) : broadcastTo ⟨2, ![64, 64]⟩ v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A matrix [64, 64] cast to [64, 64, 1] reads, at (p, q, u), the operand at (p, q). -/
theorem cast_ab_ab1 (x : (⟨2, ![64, 64]⟩ : Shape).Idx → α) (h : (⟨2, ![64, 64]⟩ : Shape).ShapeCasts ⟨3, ![64, 64, 1]⟩)
    (p q : Fin 64) (u : Fin 1) : shapeCast ⟨3, ![64, 64, 1]⟩ x h (ix3 p q u) = x (ix2 p q) :=
  shapeCast_apply x h _ _ (by
    have hu : u.val = 0 := by omega
    rw [Shape.rowMajor_val_three, Shape.rowMajor_val_two]
    show p.val * 64 + q.val = (p.val * 64 + q.val) * 1 + u.val
    omega)

/-- [64, 64, 1] broadcast to [64, 64, 128] reads, at (p, q, f), the operand at (p, q, 0). -/
theorem bcast_ab1_abc (v : (⟨3, ![64, 64, 1]⟩ : Shape).Idx → α)
    (h : (⟨3, ![64, 64, 1]⟩ : Shape).Broadcasts ⟨3, ![64, 64, 128]⟩) (p q : Fin 64) (f : Fin 128) :
    broadcastTo ⟨3, ![64, 64, 128]⟩ v h (ix3 p q f) = v (ix3 p q (0 : Fin 1)) := by
  refine broadcastTo_apply v h (ix3 p q f) (ix3 p q (0 : Fin 1)) fun ax => ?_
  match ax with
  | ⟨0, _⟩ => rfl
  | ⟨1, _⟩ => rfl
  | ⟨2, _⟩ => rfl

/-- A matrix [64, 128] cast to [64, 1, 128] reads, at (p, u, f), the operand at (p, f). -/
theorem cast_ac_a1c (x : (⟨2, ![64, 128]⟩ : Shape).Idx → α) (h : (⟨2, ![64, 128]⟩ : Shape).ShapeCasts ⟨3, ![64, 1, 128]⟩)
    (p : Fin 64) (u : Fin 1) (f : Fin 128) : shapeCast ⟨3, ![64, 1, 128]⟩ x h (ix3 p u f) = x (ix2 p f) :=
  shapeCast_apply x h _ _ (by
    have hu : u.val = 0 := by omega
    rw [Shape.rowMajor_val_three, Shape.rowMajor_val_two]
    show p.val * 128 + f.val = (p.val * 1 + u.val) * 128 + f.val
    rw [hu]; omega)

/-- [64, 1, 128] broadcast to [64, 64, 128] reads, at (p, q, f), the operand at (p, 0, f). -/
theorem bcast_a1c_abc (v : (⟨3, ![64, 1, 128]⟩ : Shape).Idx → α)
    (h : (⟨3, ![64, 1, 128]⟩ : Shape).Broadcasts ⟨3, ![64, 64, 128]⟩) (p q : Fin 64) (f : Fin 128) :
    broadcastTo ⟨3, ![64, 64, 128]⟩ v h (ix3 p q f) = v (ix3 p (0 : Fin 1) f) := by
  refine broadcastTo_apply v h (ix3 p q f) (ix3 p (0 : Fin 1) f) fun ax => ?_
  match ax with
  | ⟨0, _⟩ => rfl
  | ⟨1, _⟩ => rfl
  | ⟨2, _⟩ => rfl

/-- [1, 64, 128] broadcast to [64, 64, 128] reads, at (p, q, f), the operand at (0, q, f). -/
theorem bcast_1bc_abc (v : (⟨3, ![1, 64, 128]⟩ : Shape).Idx → α)
    (h : (⟨3, ![1, 64, 128]⟩ : Shape).Broadcasts ⟨3, ![64, 64, 128]⟩) (p q : Fin 64) (f : Fin 128) :
    broadcastTo ⟨3, ![64, 64, 128]⟩ v h (ix3 p q f) = v (ix3 (0 : Fin 1) q f) := by
  refine broadcastTo_apply v h (ix3 p q f) (ix3 (0 : Fin 1) q f) fun ax => ?_
  match ax with
  | ⟨0, _⟩ => rfl
  | ⟨1, _⟩ => rfl
  | ⟨2, _⟩ => rfl

/-- [1, 1, 128] broadcast to [64, 64, 128] reads, at (p, q, f), the operand at (0, 0, f). -/
theorem bcast_11c_abc (v : (⟨3, ![1, 1, 128]⟩ : Shape).Idx → α)
    (h : (⟨3, ![1, 1, 128]⟩ : Shape).Broadcasts ⟨3, ![64, 64, 128]⟩) (p q : Fin 64) (f : Fin 128) :
    broadcastTo ⟨3, ![64, 64, 128]⟩ v h (ix3 p q f) = v (ix3 (0 : Fin 1) (0 : Fin 1) f) := by
  refine broadcastTo_apply v h (ix3 p q f) (ix3 (0 : Fin 1) (0 : Fin 1) f) fun ax => ?_
  match ax with
  | ⟨0, _⟩ => rfl
  | ⟨1, _⟩ => rfl
  | ⟨2, _⟩ => rfl

/-- The row of [4096, 128] that holds the pair (p, q) of [64, 64, 128]. -/
def pairRow (p q : Fin 64) : Fin 4096 := ⟨p.val * 64 + q.val, by omega⟩

/-- [64, 64, 128] regrouped as [4096, 128] reads, at (row of (p, q), f), the operand at (p, q, f). -/
theorem cast_abc_mc (x : (⟨3, ![64, 64, 128]⟩ : Shape).Idx → α)
    (h : (⟨3, ![64, 64, 128]⟩ : Shape).ShapeCasts ⟨2, ![4096, 128]⟩) (p q : Fin 64) (f : Fin 128) :
    shapeCast ⟨2, ![4096, 128]⟩ x h (ix2 (pairRow p q) f) = x (ix3 p q f) :=
  shapeCast_apply x h _ _ (by
    rw [Shape.rowMajor_val_three, Shape.rowMajor_val_two]
    rfl)

/-- [4096, 128] regrouped as [64, 64, 128] reads, at (p, q, f), the operand at (row of (p, q), f). -/
theorem cast_mc_abc (x : (⟨2, ![4096, 128]⟩ : Shape).Idx → α)
    (h : (⟨2, ![4096, 128]⟩ : Shape).ShapeCasts ⟨3, ![64, 64, 128]⟩) (p q : Fin 64) (f : Fin 128) :
    shapeCast ⟨3, ![64, 64, 128]⟩ x h (ix3 p q f) = x (ix2 (pairRow p q) f) :=
  shapeCast_apply x h _ _ (by
    rw [Shape.rowMajor_val_three, Shape.rowMajor_val_two]
    rfl)

/-- The sum of a 64 × 128 array of extended reals along its first axis, at column k. -/
theorem sum_axis0 (src : FVec Ideal (⟨2, ![64, 128]⟩ : Shape) .f32)
    (h : (⟨2, ![64, 128]⟩ : Shape).Reduces [(0 : Fin 2)] ⟨1, ![128]⟩) (hφ : FKind.Formats FTy.f32)
    (hacc : (0x00000000#32 : BitVec 32) = 0x00000000#32) (k : Fin 128) :
    multiReduction .add [(0 : Fin 2)] ⟨1, ![128]⟩ src 0x00000000#32 h hφ hacc (ix1 k) = ∑ r : Fin 64, src (ix2 r k) := by
  refine (Ideal.multiReduction_add_single src 0x00000000#32 h hφ hacc (ix1 k)).trans ?_
  refine Finset.sum_congr rfl fun r _ => congrArg src ?_
  funext a
  match a with
  | ⟨0, _⟩ => rfl
  | ⟨1, _⟩ => rfl

/-- The sum of a 64 × 128 array of extended reals along its second axis, at row p. -/
theorem sum_axis1 (src : FVec Ideal (⟨2, ![64, 128]⟩ : Shape) .f32)
    (h : (⟨2, ![64, 128]⟩ : Shape).Reduces [(1 : Fin 2)] ⟨1, ![64]⟩) (hφ : FKind.Formats FTy.f32)
    (hacc : (0x00000000#32 : BitVec 32) = 0x00000000#32) (p : Fin 64) :
    multiReduction .add [(1 : Fin 2)] ⟨1, ![64]⟩ src 0x00000000#32 h hφ hacc (ix1 p) = ∑ f : Fin 128, src (ix2 p f) := by
  refine (Ideal.multiReduction_add_single src 0x00000000#32 h hφ hacc (ix1 p)).trans ?_
  refine Finset.sum_congr rfl fun f _ => congrArg src ?_
  funext a
  match a with
  | ⟨0, _⟩ => rfl
  | ⟨1, _⟩ => rfl

end Cert.KerLayout
-- ==== Proof.KerDot.lean ====
/-
  The five matrix products of the kernel's body, each read at one entry of its result as a plain finite sum:
  every one contracts the LAST axis of both operands, so entry (p, q) is the sum over k of left (p, k) times right (q, k).
  At the extended reals a product onto a zero accumulator is that sum, whatever the operands' formats.
-/
import proofs.«154938_j27951647162476_2_alg».proof.Proof.Gen.KernelIdeal
import Idealize.ShloMosaic.Lib.ValueIdx
import Idealize.ShloMosaic.PureOps.Ideal.Laws

noncomputable section

namespace Cert.KerDot

open Cert.KernelIdeal Idealize.ShloMosaic Idealize.ShloMosaic.ValueIdx

/-- Entry (p, q) of the product of a [64, 128] array with a [128, 128] array, both contracted on their last axis,
    onto a zero accumulator: the sum over k of the left entry (p, k) times the right entry (q, k). -/
theorem dot_64_128 {φ₁ φ₂ : FTy} (lhs : FVec Ideal S64x128 φ₁) (rhs : FVec Ideal S128x128 φ₂) (p : Fin 64) (q : Fin 128) :
    matmul dot_S64x128_S128x128_S64x128_1_1_0_0_n_n none lhs rhs (constant (F := Ideal) S64x128 .f32 0x00000000#32) (ix2 p q)
      = ∑ k : Fin 128, lhs (ix2 p k) * rhs (ix2 q k) := by
  refine (Ideal.matmul_constant_zero_apply dot_S64x128_S128x128_S64x128_1_1_0_0_n_n none lhs rhs (ix2 p q)).trans ?_
  rw [← Equiv.sum_comp (ValueIdx.contrEquiv1 dot_S64x128_S128x128_S64x128_1_1_0_0_n_n 128 rfl rfl).symm]
  refine Finset.sum_congr rfl fun k _ => ?_
  have hk := ValueIdx.contrEquiv1_symm_val dot_S64x128_S128x128_S64x128_1_1_0_0_n_n 128 rfl rfl k
  have el : dot_S64x128_S128x128_S64x128_1_1_0_0_n_n.lhsIdx (ix2 p q) ((ValueIdx.contrEquiv1 dot_S64x128_S128x128_S64x128_1_1_0_0_n_n 128 rfl rfl).symm k) = ix2 p k := funext fun a => Fin.ext (by
    match a with
    | ⟨0, _⟩ =>
      show (dot_S64x128_S128x128_S64x128_1_1_0_0_n_n.lhsIdx (ix2 p q) _ 0).val = p.val
      unfold DotDims.lhsIdx
      rw [dif_neg (show ¬(0 : Fin S64x128.rank) ∈ dot_S64x128_S128x128_S64x128_1_1_0_0_n_n.lhsBatch by decide), dif_pos (show (0 : Fin S64x128.rank) ∈ dot_S64x128_S128x128_S64x128_1_1_0_0_n_n.lhsNonContracting by decide)]
      rfl
    | ⟨1, _⟩ => exact (dot_S64x128_S128x128_S64x128_1_1_0_0_n_n.lhsIdx_val_of_single rfl _ _).trans hk)
  have er : dot_S64x128_S128x128_S64x128_1_1_0_0_n_n.rhsIdx (ix2 p q) ((ValueIdx.contrEquiv1 dot_S64x128_S128x128_S64x128_1_1_0_0_n_n 128 rfl rfl).symm k) = ix2 q k := funext fun a => Fin.ext (by
    match a with
    | ⟨0, _⟩ =>
      show (dot_S64x128_S128x128_S64x128_1_1_0_0_n_n.rhsIdx (ix2 p q) _ 0).val = q.val
      unfold DotDims.rhsIdx
      rw [dif_neg (show ¬(0 : Fin S128x128.rank) ∈ dot_S64x128_S128x128_S64x128_1_1_0_0_n_n.rhsBatch by decide), dif_pos (show (0 : Fin S128x128.rank) ∈ dot_S64x128_S128x128_S64x128_1_1_0_0_n_n.rhsNonContracting by decide)]
      rfl
    | ⟨1, _⟩ => exact (dot_S64x128_S128x128_S64x128_1_1_0_0_n_n.rhsIdx_val_of_single rfl _ _).trans hk)
  rw [el, er]

/-- Entry (p, q) of the product of a [1, 128] array with a [128, 128] array, both contracted on their last axis,
    onto a zero accumulator: the sum over k of the left entry (p, k) times the right entry (q, k). -/
theorem dot_1_128 {φ₁ φ₂ : FTy} (lhs : FVec Ideal S1x128 φ₁) (rhs : FVec Ideal S128x128 φ₂) (p : Fin 1) (q : Fin 128) :
    matmul dot_S1x128_S128x128_S1x128_1_1_0_0_n_n none lhs rhs (constant (F := Ideal) S1x128 .f32 0x00000000#32) (ix2 p q)
      = ∑ k : Fin 128, lhs (ix2 p k) * rhs (ix2 q k) := by
  refine (Ideal.matmul_constant_zero_apply dot_S1x128_S128x128_S1x128_1_1_0_0_n_n none lhs rhs (ix2 p q)).trans ?_
  rw [← Equiv.sum_comp (ValueIdx.contrEquiv1 dot_S1x128_S128x128_S1x128_1_1_0_0_n_n 128 rfl rfl).symm]
  refine Finset.sum_congr rfl fun k _ => ?_
  have hk := ValueIdx.contrEquiv1_symm_val dot_S1x128_S128x128_S1x128_1_1_0_0_n_n 128 rfl rfl k
  have el : dot_S1x128_S128x128_S1x128_1_1_0_0_n_n.lhsIdx (ix2 p q) ((ValueIdx.contrEquiv1 dot_S1x128_S128x128_S1x128_1_1_0_0_n_n 128 rfl rfl).symm k) = ix2 p k := funext fun a => Fin.ext (by
    match a with
    | ⟨0, _⟩ =>
      show (dot_S1x128_S128x128_S1x128_1_1_0_0_n_n.lhsIdx (ix2 p q) _ 0).val = p.val
      unfold DotDims.lhsIdx
      rw [dif_neg (show ¬(0 : Fin S1x128.rank) ∈ dot_S1x128_S128x128_S1x128_1_1_0_0_n_n.lhsBatch by decide), dif_pos (show (0 : Fin S1x128.rank) ∈ dot_S1x128_S128x128_S1x128_1_1_0_0_n_n.lhsNonContracting by decide)]
      rfl
    | ⟨1, _⟩ => exact (dot_S1x128_S128x128_S1x128_1_1_0_0_n_n.lhsIdx_val_of_single rfl _ _).trans hk)
  have er : dot_S1x128_S128x128_S1x128_1_1_0_0_n_n.rhsIdx (ix2 p q) ((ValueIdx.contrEquiv1 dot_S1x128_S128x128_S1x128_1_1_0_0_n_n 128 rfl rfl).symm k) = ix2 q k := funext fun a => Fin.ext (by
    match a with
    | ⟨0, _⟩ =>
      show (dot_S1x128_S128x128_S1x128_1_1_0_0_n_n.rhsIdx (ix2 p q) _ 0).val = q.val
      unfold DotDims.rhsIdx
      rw [dif_neg (show ¬(0 : Fin S128x128.rank) ∈ dot_S1x128_S128x128_S1x128_1_1_0_0_n_n.rhsBatch by decide), dif_pos (show (0 : Fin S128x128.rank) ∈ dot_S1x128_S128x128_S1x128_1_1_0_0_n_n.rhsNonContracting by decide)]
      rfl
    | ⟨1, _⟩ => exact (dot_S1x128_S128x128_S1x128_1_1_0_0_n_n.rhsIdx_val_of_single rfl _ _).trans hk)
  rw [el, er]

/-- Entry (p, q) of the product of a [1, 128] array with a [64, 128] array, both contracted on their last axis,
    onto a zero accumulator: the sum over k of the left entry (p, k) times the right entry (q, k). -/
theorem dot_1_64 {φ₁ φ₂ : FTy} (lhs : FVec Ideal S1x128 φ₁) (rhs : FVec Ideal S64x128 φ₂) (p : Fin 1) (q : Fin 64) :
    matmul dot_S1x128_S64x128_S1x64_1_1_0_0_n_n none lhs rhs (constant (F := Ideal) S1x64 .f32 0x00000000#32) (ix2 p q)
      = ∑ k : Fin 128, lhs (ix2 p k) * rhs (ix2 q k) := by
  refine (Ideal.matmul_constant_zero_apply dot_S1x128_S64x128_S1x64_1_1_0_0_n_n none lhs rhs (ix2 p q)).trans ?_
  rw [← Equiv.sum_comp (ValueIdx.contrEquiv1 dot_S1x128_S64x128_S1x64_1_1_0_0_n_n 128 rfl rfl).symm]
  refine Finset.sum_congr rfl fun k _ => ?_
  have hk := ValueIdx.contrEquiv1_symm_val dot_S1x128_S64x128_S1x64_1_1_0_0_n_n 128 rfl rfl k
  have el : dot_S1x128_S64x128_S1x64_1_1_0_0_n_n.lhsIdx (ix2 p q) ((ValueIdx.contrEquiv1 dot_S1x128_S64x128_S1x64_1_1_0_0_n_n 128 rfl rfl).symm k) = ix2 p k := funext fun a => Fin.ext (by
    match a with
    | ⟨0, _⟩ =>
      show (dot_S1x128_S64x128_S1x64_1_1_0_0_n_n.lhsIdx (ix2 p q) _ 0).val = p.val
      unfold DotDims.lhsIdx
      rw [dif_neg (show ¬(0 : Fin S1x128.rank) ∈ dot_S1x128_S64x128_S1x64_1_1_0_0_n_n.lhsBatch by decide), dif_pos (show (0 : Fin S1x128.rank) ∈ dot_S1x128_S64x128_S1x64_1_1_0_0_n_n.lhsNonContracting by decide)]
      rfl
    | ⟨1, _⟩ => exact (dot_S1x128_S64x128_S1x64_1_1_0_0_n_n.lhsIdx_val_of_single rfl _ _).trans hk)
  have er : dot_S1x128_S64x128_S1x64_1_1_0_0_n_n.rhsIdx (ix2 p q) ((ValueIdx.contrEquiv1 dot_S1x128_S64x128_S1x64_1_1_0_0_n_n 128 rfl rfl).symm k) = ix2 q k := funext fun a => Fin.ext (by
    match a with
    | ⟨0, _⟩ =>
      show (dot_S1x128_S64x128_S1x64_1_1_0_0_n_n.rhsIdx (ix2 p q) _ 0).val = q.val
      unfold DotDims.rhsIdx
      rw [dif_neg (show ¬(0 : Fin S64x128.rank) ∈ dot_S1x128_S64x128_S1x64_1_1_0_0_n_n.rhsBatch by decide), dif_pos (show (0 : Fin S64x128.rank) ∈ dot_S1x128_S64x128_S1x64_1_1_0_0_n_n.rhsNonContracting by decide)]
      rfl
    | ⟨1, _⟩ => exact (dot_S1x128_S64x128_S1x64_1_1_0_0_n_n.rhsIdx_val_of_single rfl _ _).trans hk)
  rw [el, er]

/-- Entry (p, q) of the product of a [64, 128] array with a [64, 128] array, both contracted on their last axis,
    onto a zero accumulator: the sum over k of the left entry (p, k) times the right entry (q, k). -/
theorem dot_64_64 {φ₁ φ₂ : FTy} (lhs : FVec Ideal S64x128 φ₁) (rhs : FVec Ideal S64x128 φ₂) (p : Fin 64) (q : Fin 64) :
    matmul dot_S64x128_S64x128_S64x64_1_1_0_0_n_n none lhs rhs (constant (F := Ideal) S64x64 .f32 0x00000000#32) (ix2 p q)
      = ∑ k : Fin 128, lhs (ix2 p k) * rhs (ix2 q k) := by
  refine (Ideal.matmul_constant_zero_apply dot_S64x128_S64x128_S64x64_1_1_0_0_n_n none lhs rhs (ix2 p q)).trans ?_
  rw [← Equiv.sum_comp (ValueIdx.contrEquiv1 dot_S64x128_S64x128_S64x64_1_1_0_0_n_n 128 rfl rfl).symm]
  refine Finset.sum_congr rfl fun k _ => ?_
  have hk := ValueIdx.contrEquiv1_symm_val dot_S64x128_S64x128_S64x64_1_1_0_0_n_n 128 rfl rfl k
  have el : dot_S64x128_S64x128_S64x64_1_1_0_0_n_n.lhsIdx (ix2 p q) ((ValueIdx.contrEquiv1 dot_S64x128_S64x128_S64x64_1_1_0_0_n_n 128 rfl rfl).symm k) = ix2 p k := funext fun a => Fin.ext (by
    match a with
    | ⟨0, _⟩ =>
      show (dot_S64x128_S64x128_S64x64_1_1_0_0_n_n.lhsIdx (ix2 p q) _ 0).val = p.val
      unfold DotDims.lhsIdx
      rw [dif_neg (show ¬(0 : Fin S64x128.rank) ∈ dot_S64x128_S64x128_S64x64_1_1_0_0_n_n.lhsBatch by decide), dif_pos (show (0 : Fin S64x128.rank) ∈ dot_S64x128_S64x128_S64x64_1_1_0_0_n_n.lhsNonContracting by decide)]
      rfl
    | ⟨1, _⟩ => exact (dot_S64x128_S64x128_S64x64_1_1_0_0_n_n.lhsIdx_val_of_single rfl _ _).trans hk)
  have er : dot_S64x128_S64x128_S64x64_1_1_0_0_n_n.rhsIdx (ix2 p q) ((ValueIdx.contrEquiv1 dot_S64x128_S64x128_S64x64_1_1_0_0_n_n 128 rfl rfl).symm k) = ix2 q k := funext fun a => Fin.ext (by
    match a with
    | ⟨0, _⟩ =>
      show (dot_S64x128_S64x128_S64x64_1_1_0_0_n_n.rhsIdx (ix2 p q) _ 0).val = q.val
      unfold DotDims.rhsIdx
      rw [dif_neg (show ¬(0 : Fin S64x128.rank) ∈ dot_S64x128_S64x128_S64x64_1_1_0_0_n_n.rhsBatch by decide), dif_pos (show (0 : Fin S64x128.rank) ∈ dot_S64x128_S64x128_S64x64_1_1_0_0_n_n.rhsNonContracting by decide)]
      rfl
    | ⟨1, _⟩ => exact (dot_S64x128_S64x128_S64x64_1_1_0_0_n_n.rhsIdx_val_of_single rfl _ _).trans hk)
  rw [el, er]

/-- Entry (p, q) of the product of a [4096, 128] array with a [128, 128] array, both contracted on their last axis,
    onto a zero accumulator: the sum over k of the left entry (p, k) times the right entry (q, k). -/
theorem dot_4096_128 {φ₁ φ₂ : FTy} (lhs : FVec Ideal S4096x128 φ₁) (rhs : FVec Ideal S128x128 φ₂) (p : Fin 4096) (q : Fin 128) :
    matmul dot_S4096x128_S128x128_S4096x128_1_1_0_0_n_n none lhs rhs (constant (F := Ideal) S4096x128 .f32 0x00000000#32) (ix2 p q)
      = ∑ k : Fin 128, lhs (ix2 p k) * rhs (ix2 q k) := by
  refine (Ideal.matmul_constant_zero_apply dot_S4096x128_S128x128_S4096x128_1_1_0_0_n_n none lhs rhs (ix2 p q)).trans ?_
  rw [← Equiv.sum_comp (ValueIdx.contrEquiv1 dot_S4096x128_S128x128_S4096x128_1_1_0_0_n_n 128 rfl rfl).symm]
  refine Finset.sum_congr rfl fun k _ => ?_
  have hk := ValueIdx.contrEquiv1_symm_val dot_S4096x128_S128x128_S4096x128_1_1_0_0_n_n 128 rfl rfl k
  have el : dot_S4096x128_S128x128_S4096x128_1_1_0_0_n_n.lhsIdx (ix2 p q) ((ValueIdx.contrEquiv1 dot_S4096x128_S128x128_S4096x128_1_1_0_0_n_n 128 rfl rfl).symm k) = ix2 p k := funext fun a => Fin.ext (by
    match a with
    | ⟨0, _⟩ =>
      show (dot_S4096x128_S128x128_S4096x128_1_1_0_0_n_n.lhsIdx (ix2 p q) _ 0).val = p.val
      unfold DotDims.lhsIdx
      rw [dif_neg (show ¬(0 : Fin S4096x128.rank) ∈ dot_S4096x128_S128x128_S4096x128_1_1_0_0_n_n.lhsBatch by decide), dif_pos (show (0 : Fin S4096x128.rank) ∈ dot_S4096x128_S128x128_S4096x128_1_1_0_0_n_n.lhsNonContracting by decide)]
      rfl
    | ⟨1, _⟩ => exact (dot_S4096x128_S128x128_S4096x128_1_1_0_0_n_n.lhsIdx_val_of_single rfl _ _).trans hk)
  have er : dot_S4096x128_S128x128_S4096x128_1_1_0_0_n_n.rhsIdx (ix2 p q) ((ValueIdx.contrEquiv1 dot_S4096x128_S128x128_S4096x128_1_1_0_0_n_n 128 rfl rfl).symm k) = ix2 q k := funext fun a => Fin.ext (by
    match a with
    | ⟨0, _⟩ =>
      show (dot_S4096x128_S128x128_S4096x128_1_1_0_0_n_n.rhsIdx (ix2 p q) _ 0).val = q.val
      unfold DotDims.rhsIdx
      rw [dif_neg (show ¬(0 : Fin S128x128.rank) ∈ dot_S4096x128_S128x128_S4096x128_1_1_0_0_n_n.rhsBatch by decide), dif_pos (show (0 : Fin S128x128.rank) ∈ dot_S4096x128_S128x128_S4096x128_1_1_0_0_n_n.rhsNonContracting by decide)]
      rfl
    | ⟨1, _⟩ => exact (dot_S4096x128_S128x128_S4096x128_1_1_0_0_n_n.rhsIdx_val_of_single rfl _ _).trans hk)
  rw [el, er]

end Cert.KerDot

end
-- ==== Proof.KerPayA.lean ====
/-
  The first stage of the kernel's body at the extended reals, entry by entry, when its inputs are arrays of reals:
  the 64 × 128 block x contracted against one 128 × 128 block W of the first weight matrix is the matrix of sums
  Σ_k x r k · W f k; the column mean of x is the column sum divided by 64; a row vector contracted against a block
  gives one row.  From these: rowP = (x·W_b)ᵀ-row + mean·W_e + b1, rowQ = x·W_c, diagA = x·W_a + mean·W_d.
-/
import proofs.«154938_j27951647162476_2_alg».proof.Proof.Gen.KernelIdeal.Skeleton
import proofs.«154938_j27951647162476_2_alg».proof.Proof.Spec
import proofs.«154938_j27951647162476_2_alg».proof.Proof.Consts
import proofs.«154938_j27951647162476_2_alg».proof.Proof.KerLayout
import proofs.«154938_j27951647162476_2_alg».proof.Proof.KerDot
import Idealize.ShloMosaic.Lib.ValueLayout

noncomputable section

namespace Cert.KerPay

open Cert.KernelIdeal Cert.KernelIdeal.Gen Idealize.ShloMosaic Idealize.ShloMosaic.ValueIdx
open Finset BigOperators

variable (v0 : FVec Ideal S1x64x128 .f32) (x : Fin 64 → Fin 128 → ℝ)
  (hx : ∀ (r : Fin 64) (k : Fin 128), v0 (ix3 (0 : Fin 1) r k) = ((x r k : ℝ) : EReal))

include hx

/-- The block as a 64 × 128 matrix. -/
theorem pay2_at (r : Fin 64) (k : Fin 128) : k0_pay2 (F := Ideal) v0 (ix2 r k) = ((x r k : ℝ) : EReal) := by
  unfold k0_pay2
  try dsimp only
  rw [shapeCast_1ab_ab_apply, hx]

theorem pay3_at (r : Fin 64) (k : Fin 128) : k0_pay3 (F := Ideal) v0 (ix2 r k) = ((x r k : ℝ) : EReal) := by
  unfold k0_pay3
  try dsimp only
  exact pay2_at v0 x hx r k

/-- x contracted against a block W: entry (r, f) is Σ_k x r k · W f k. -/
theorem pay4_at (v7 : FVec Ideal S128x128 .bf16) (W : Fin 128 → Fin 128 → ℝ)
    (hW : ∀ (f k : Fin 128), v7 (ix2 f k) = ((W f k : ℝ) : EReal)) (r : Fin 64) (f : Fin 128) :
    k0_pay4 (F := Ideal) v0 v7 (ix2 r f) = ((∑ k : Fin 128, x r k * W f k : ℝ) : EReal) := by
  unfold k0_pay4
  try dsimp only
  rw [Cert.KerDot.dot_64_128, ← Cert.Spec.coe_sum]
  refine Finset.sum_congr rfl fun k _ => ?_
  rw [pay3_at v0 x hx, shapeCast_self, hW, EReal.coe_mul]

/-- The column means of x, as one row. -/
theorem pay5_at (u : Fin 1) (k : Fin 128) :
    k0_pay5 (F := Ideal) v0 (ix2 u k) = (((∑ r : Fin 64, x r k) / 64 : ℝ) : EReal) := by
  unfold k0_pay5
  try dsimp only
  simp only [truncf_apply, divf_apply, broadcast_apply]
  rw [shapeCast_a_1a_apply, Cert.KerLayout.sum_axis0,
    show Scalar.ofBits (F := Ideal) .f32 0x42800000#32 = ((64 : ℝ) : EReal) from Cert.Consts.ofBits_64,
    Ideal.div_coe (by norm_num : (64 : ℝ) ≠ 0)]
  simp only [pay2_at v0 x hx]
  rw [Cert.Spec.coe_sum, ← EReal.coe_mul]
  congr 1
  ring

/-- rowP: x against block W_b, plus the column mean against block W_e, plus the bias row. -/
theorem pay6_at (v5 v11 : FVec Ideal S128x128 .bf16) (v23 : FVec Ideal S1x128 .f32) (Wb We : Fin 128 → Fin 128 → ℝ)
    (b1 : Fin 128 → ℝ) (hWb : ∀ (f k : Fin 128), v5 (ix2 f k) = ((Wb f k : ℝ) : EReal))
    (hWe : ∀ (f k : Fin 128), v11 (ix2 f k) = ((We f k : ℝ) : EReal))
    (hb1 : ∀ (u : Fin 1) (f : Fin 128), v23 (ix2 u f) = ((b1 f : ℝ) : EReal)) (i : Fin 64) (f : Fin 128) :
    k0_pay6 (F := Ideal) v0 v5 v11 v23 (ix2 i f)
      = (((∑ k : Fin 128, x i k * Wb f k) + (∑ k : Fin 128, ((∑ r : Fin 64, x r k) / 64) * We f k) + b1 f : ℝ) : EReal) := by
  unfold k0_pay6
  try dsimp only
  simp only [addf_apply]
  rw [EReal.coe_add, EReal.coe_add]
  refine congrArg₂ (· + ·) (congrArg₂ (· + ·) ?_ ?_) ?_
  · rw [Cert.KerDot.dot_64_128, ← Cert.Spec.coe_sum]
    refine Finset.sum_congr rfl fun k _ => ?_
    rw [pay3_at v0 x hx, shapeCast_self, hWb, EReal.coe_mul]
  · rw [broadcastTo_1b_ab_apply, Cert.KerDot.dot_1_128, ← Cert.Spec.coe_sum]
    refine Finset.sum_congr rfl fun k _ => ?_
    rw [pay5_at v0 x hx, shapeCast_self, hWe, EReal.coe_mul]
  · rw [broadcastTo_1b_ab_apply, shapeCast_self, hb1]

/-- diagA: x against block W_a, plus the column mean against block W_d. -/
theorem pay7_at (v3 v9 : FVec Ideal S128x128 .bf16) (Wa Wd : Fin 128 → Fin 128 → ℝ)
    (hWa : ∀ (f k : Fin 128), v3 (ix2 f k) = ((Wa f k : ℝ) : EReal))
    (hWd : ∀ (f k : Fin 128), v9 (ix2 f k) = ((Wd f k : ℝ) : EReal)) (i : Fin 64) (f : Fin 128) :
    k0_pay7 (F := Ideal) v0 v3 v9 (ix2 i f)
      = (((∑ k : Fin 128, x i k * Wa f k) + (∑ k : Fin 128, ((∑ r : Fin 64, x r k) / 64) * Wd f k) : ℝ) : EReal) := by
  unfold k0_pay7
  try dsimp only
  simp only [addf_apply]
  rw [EReal.coe_add]
  refine congrArg₂ (· + ·) ?_ ?_
  · rw [Cert.KerDot.dot_64_128, ← Cert.Spec.coe_sum]
    refine Finset.sum_congr rfl fun k _ => ?_
    rw [pay3_at v0 x hx, shapeCast_self, hWa, EReal.coe_mul]
  · rw [broadcastTo_1b_ab_apply, Cert.KerDot.dot_1_128, ← Cert.Spec.coe_sum]
    refine Finset.sum_congr rfl fun k _ => ?_
    rw [pay5_at v0 x hx, shapeCast_self, hWd, EReal.coe_mul]

/-- rowP again: a change of format is the identity on the extended reals. -/
theorem pay8_at (v5 v11 : FVec Ideal S128x128 .bf16) (v23 : FVec Ideal S1x128 .f32) (Wb We : Fin 128 → Fin 128 → ℝ)
    (b1 : Fin 128 → ℝ) (hWb : ∀ (f k : Fin 128), v5 (ix2 f k) = ((Wb f k : ℝ) : EReal))
    (hWe : ∀ (f k : Fin 128), v11 (ix2 f k) = ((We f k : ℝ) : EReal))
    (hb1 : ∀ (u : Fin 1) (f : Fin 128), v23 (ix2 u f) = ((b1 f : ℝ) : EReal)) (i : Fin 64) (f : Fin 128) :
    k0_pay8 (F := Ideal) v0 v5 v11 v23 (ix2 i f)
      = (((∑ k : Fin 128, x i k * Wb f k) + (∑ k : Fin 128, ((∑ r : Fin 64, x r k) / 64) * We f k) + b1 f : ℝ) : EReal) := by
  unfold k0_pay8
  try dsimp only
  exact pay6_at v0 x hx v5 v11 v23 Wb We b1 hWb hWe hb1 i f

/-- rowQ again, likewise. -/
theorem pay9_at (v7 : FVec Ideal S128x128 .bf16) (W : Fin 128 → Fin 128 → ℝ)
    (hW : ∀ (f k : Fin 128), v7 (ix2 f k) = ((W f k : ℝ) : EReal)) (r : Fin 64) (f : Fin 128) :
    k0_pay9 (F := Ideal) v0 v7 (ix2 r f) = ((∑ k : Fin 128, x r k * W f k : ℝ) : EReal) := by
  unfold k0_pay9
  try dsimp only
  exact pay4_at v0 x hx v7 W hW r f

omit hx in
/-- The row of ones. -/
theorem pay10_at (a : S1x128.Idx) : k0_pay10 (F := Ideal) a = ((1 : ℝ) : EReal) := by
  unfold k0_pay10
  try dsimp only
  exact Cert.Consts.ofBits_one_bf16

/-- The row sums of rowQ, taken as a product with the row of ones. -/
theorem pay11_at (v7 : FVec Ideal S128x128 .bf16) (W : Fin 128 → Fin 128 → ℝ)
    (hW : ∀ (f k : Fin 128), v7 (ix2 f k) = ((W f k : ℝ) : EReal)) (u : Fin 1) (j : Fin 64) :
    k0_pay11 (F := Ideal) v0 v7 (ix2 u j) = ((∑ f : Fin 128, 1 * (∑ k : Fin 128, x j k * W f k) : ℝ) : EReal) := by
  unfold k0_pay11
  try dsimp only
  rw [Cert.KerDot.dot_1_64, ← Cert.Spec.coe_sum]
  refine Finset.sum_congr rfl fun f _ => ?_
  rw [pay10_at, pay9_at v0 x hx v7 W hW, EReal.coe_mul]

end Cert.KerPay

end
-- ==== Proof.KerPayB.lean ====
/-
  The layer-norm statistics of the kernel's body at the extended reals, entry by entry, when the three 64 × 128 arrays
  rowP, rowQ, diagA are arrays of reals P, Q, A.  A sum along the last axis of a 64 × 128 array is Σ_f; a column laid
  as [64, 1] and spread along rows reads its row's entry; a row [1, 64] spread along columns reads its column's entry;
  a product of two 64 × 128 arrays contracted on the last axis has entry (i, j) equal to Σ_f left i f · right j f.
  From these: the mean of row (i, j) off the diagonal is (Σ_f P i f + Σ_f Q j f) / 128, its mean of squares is
  (Σ_f P i f² + 2 Σ_f P i f · Q j f + Σ_f Q j f²) / 128, and the diagonal corrections are
  (2 Σ_f A i f · (P i f + Q i f) + Σ_f A i f²) / 128 and (Σ_f A i f) / 128.
-/
import proofs.«154938_j27951647162476_2_alg».proof.Proof.Gen.KernelIdeal.Skeleton
import proofs.«154938_j27951647162476_2_alg».proof.Proof.Spec
import proofs.«154938_j27951647162476_2_alg».proof.Proof.Consts
import proofs.«154938_j27951647162476_2_alg».proof.Proof.KerLayout
import proofs.«154938_j27951647162476_2_alg».proof.Proof.KerDot
import Idealize.ShloMosaic.Lib.ValueLayout

noncomputable section

namespace Cert.KerPay

open Cert.KernelIdeal Cert.KernelIdeal.Gen Idealize.ShloMosaic Idealize.ShloMosaic.ValueIdx
open Finset BigOperators

/-- The diagonal correction of the mean: the row sum of A, divided by 128, the same along each row. -/
theorem pay18_at (v30 : FVec Ideal S64x128 .f32) (A : Fin 64 → Fin 128 → ℝ)
    (h30 : ∀ (i : Fin 64) (f : Fin 128), v30 (ix2 i f) = ((A i f : ℝ) : EReal)) (i j : Fin 64) :
    k0_pay18 (F := Ideal) v30 (ix2 i j) = (((∑ f : Fin 128, A i f) * (1 / 128) : ℝ) : EReal) := by
  unfold k0_pay18
  try dsimp only
  rw [Cert.KerLayout.bcast_a1_ab]
  simp only [mulf_apply, broadcast_apply]
  rw [Cert.KerLayout.cast_a_a1, Cert.KerLayout.sum_axis1,
    show Scalar.ofBits (F := Ideal) .f32 0x3C000000#32 = ((1 / 128 : ℝ) : EReal) from Cert.Consts.ofBits_inv128]
  simp only [h30]
  rw [Cert.Spec.coe_sum, ← EReal.coe_mul]

/-- The mean off the diagonal: the row sum of P at i plus the given row sum of Q at j, divided by 128. -/
theorem pay12_at (v28 : FVec Ideal S64x128 .f32) (v34 : FVec Ideal S1x64 .f32) (P : Fin 64 → Fin 128 → ℝ)
    (qr : Fin 64 → ℝ)
    (hP : ∀ (i : Fin 64) (f : Fin 128), v28 (ix2 i f) = ((P i f : ℝ) : EReal))
    (hq : ∀ (u : Fin 1) (j : Fin 64), v34 (ix2 u j) = ((qr j : ℝ) : EReal)) (i j : Fin 64) :
    k0_pay12 (F := Ideal) v28 v34 (ix2 i j)
      = ((((∑ f : Fin 128, P i f) + qr j) * (1 / 128) : ℝ) : EReal) := by
  unfold k0_pay12
  try dsimp only
  simp only [mulf_apply, addf_apply, broadcast_apply]
  rw [Cert.KerLayout.bcast_a1_ab, Cert.KerLayout.cast_a_a1, Cert.KerLayout.sum_axis1,
    broadcastTo_1b_ab_apply, hq,
    show Scalar.ofBits (F := Ideal) .f32 0x3C000000#32 = ((1 / 128 : ℝ) : EReal) from Cert.Consts.ofBits_inv128]
  simp only [hP]
  rw [Cert.Spec.coe_sum, ← EReal.coe_add, ← EReal.coe_mul]

/-- The diagonal correction of the mean of squares: twice the row sum of A · (P + Q) plus the row sum of A², divided by 128. -/
theorem pay17_at (v15 v28 v30 : FVec Ideal S64x128 .f32) (P Q A : Fin 64 → Fin 128 → ℝ)
    (h15 : ∀ (j : Fin 64) (f : Fin 128), v15 (ix2 j f) = ((Q j f : ℝ) : EReal))
    (h28 : ∀ (i : Fin 64) (f : Fin 128), v28 (ix2 i f) = ((P i f : ℝ) : EReal))
    (h30 : ∀ (i : Fin 64) (f : Fin 128), v30 (ix2 i f) = ((A i f : ℝ) : EReal)) (i : Fin 64) (u : Fin 1) :
    k0_pay17 (F := Ideal) v15 v28 v30 (ix2 i u)
      = (((2 * (∑ f : Fin 128, A i f * (P i f + Q i f)) + (∑ f : Fin 128, A i f * A i f)) * (1 / 128) : ℝ) : EReal) := by
  unfold k0_pay17
  try dsimp only
  simp only [mulf_apply, addf_apply, broadcast_apply]
  rw [Cert.KerLayout.cast_a_a1, Cert.KerLayout.cast_a_a1, Cert.KerLayout.sum_axis1, Cert.KerLayout.sum_axis1,
    show Scalar.ofBits (F := Ideal) .f32 0x40000000#32 = ((2 : ℝ) : EReal) from Cert.Consts.ofBits_two,
    show Scalar.ofBits (F := Ideal) .f32 0x3C000000#32 = ((1 / 128 : ℝ) : EReal) from Cert.Consts.ofBits_inv128]
  simp only [mulf_apply, addf_apply, h15, h28, h30]
  simp only [← EReal.coe_add, ← EReal.coe_mul, Cert.Spec.coe_sum]

/-- The mean of squares off the diagonal: the row sum of P² at i, twice the contraction of P at i with Q at j,
    and the row of ones contracted with Q² at j, divided by 128. -/
theorem pay13_at (v15 v28 : FVec Ideal S64x128 .f32) (v31 v32 : FVec Ideal S64x128 .bf16)
    (v33 : FVec Ideal S1x128 .bf16) (P Q : Fin 64 → Fin 128 → ℝ)
    (h15 : ∀ (j : Fin 64) (f : Fin 128), v15 (ix2 j f) = ((Q j f : ℝ) : EReal))
    (h28 : ∀ (i : Fin 64) (f : Fin 128), v28 (ix2 i f) = ((P i f : ℝ) : EReal))
    (h31 : ∀ (i : Fin 64) (f : Fin 128), v31 (ix2 i f) = ((P i f : ℝ) : EReal))
    (h32 : ∀ (j : Fin 64) (f : Fin 128), v32 (ix2 j f) = ((Q j f : ℝ) : EReal))
    (h33 : ∀ a : S1x128.Idx, v33 a = ((1 : ℝ) : EReal)) (i j : Fin 64) :
    k0_pay13 (F := Ideal) v15 v28 v31 v32 v33 (ix2 i j)
      = ((((∑ f : Fin 128, P i f * P i f) + 2 * (∑ f : Fin 128, P i f * Q j f)
          + (∑ f : Fin 128, 1 * (Q j f * Q j f))) * (1 / 128) : ℝ) : EReal) := by
  unfold k0_pay13
  try dsimp only
  simp only [mulf_apply, addf_apply, broadcast_apply]
  rw [Cert.KerLayout.bcast_a1_ab, Cert.KerLayout.cast_a_a1, Cert.KerLayout.sum_axis1, Cert.KerDot.dot_64_64,
    broadcastTo_1b_ab_apply, Cert.KerDot.dot_1_64,
    show Scalar.ofBits (F := Ideal) .f32 0x40000000#32 = ((2 : ℝ) : EReal) from Cert.Consts.ofBits_two,
    show Scalar.ofBits (F := Ideal) .f32 0x3C000000#32 = ((1 / 128 : ℝ) : EReal) from Cert.Consts.ofBits_inv128]
  simp only [mulf_apply, truncf_apply, h15, h28, h31, h32, h33]
  simp only [← EReal.coe_add, ← EReal.coe_mul, Cert.Spec.coe_sum]

end Cert.KerPay

end
-- ==== Proof.KerPayC.lean ====
/-
  The last stage of the kernel's body at the extended reals, entry by entry, over arrays of reals.
  The diagonal bias is b f · e i j.  The normalised activation at (i, j, f) is
  max (((e i j · A i f + P i f + Q j f) − μ) · (√(var + ε))⁻¹ · γ f + β f) 0 with μ and var the row's mean and variance,
  where the inverse square root of a POSITIVE real is a real — the one place positivity is used.  The output at (i, j, d)
  is the sum over f of (activation + bias) · W2 d f, plus b2 d; the 64 × 64 pairs (i, j) are the rows of a 4096-row matrix
  only in between.
-/
import proofs.«154938_j27951647162476_2_alg».proof.Proof.Gen.KernelIdeal.Skeleton
import proofs.«154938_j27951647162476_2_alg».proof.Proof.Spec
import proofs.«154938_j27951647162476_2_alg».proof.Proof.Consts
import proofs.«154938_j27951647162476_2_alg».proof.Proof.KerLayout
import proofs.«154938_j27951647162476_2_alg».proof.Proof.KerDot
import Idealize.ShloMosaic.Lib.ValueLayout

noncomputable section

namespace Cert.KerPay

open Cert.KernelIdeal Cert.KernelIdeal.Gen Idealize.ShloMosaic Idealize.ShloMosaic.ValueIdx
open Finset BigOperators

/-- The larger of two coerced reals is the coerced larger one: the coercion is monotone. -/
theorem coe_max' (a b : ℝ) : max ((a : ℝ) : EReal) ((b : ℝ) : EReal) = ((max a b : ℝ) : EReal) :=
  (EReal.coe_strictMono.monotone.map_max).symm

/-- The inverse square root of a positive real, times a difference, scaled and shifted, against zero: one real. -/
theorem act_scalar (h mu v eps g b : ℝ) (hpos : 0 < v + eps) :
    max ((((h : ℝ) : EReal) - ((mu : ℝ) : EReal)) * Ideal.rsqrt (((v : ℝ) : EReal) + ((eps : ℝ) : EReal)) * ((g : ℝ) : EReal)
        + ((b : ℝ) : EReal)) (((0 : ℝ)) : EReal)
      = ((max ((h - mu) * (Real.sqrt (v + eps))⁻¹ * g + b) 0 : ℝ) : EReal) := by
  rw [← EReal.coe_add, Ideal.rsqrt_coe, if_neg (not_lt.2 hpos.le), if_neg hpos.ne', ← EReal.coe_sub, ← EReal.coe_mul,
    ← EReal.coe_mul, ← EReal.coe_add, coe_max']

theorem rsqrt_at {s : Shape} {φ : FTy} (a : FVec Ideal s φ) (i : s.Idx) : rsqrt a i = Ideal.rsqrt (a i) := rfl

/-- The diagonal bias. -/
theorem pay20_at (v73 : FVec Ideal S64x64 .bf16) (v112 : FVec Ideal S1x128 .f32) (E : Fin 64 → Fin 64 → ℝ) (bp : Fin 128 → ℝ)
    (hE : ∀ (i j : Fin 64), v73 (ix2 i j) = ((E i j : ℝ) : EReal))
    (hbp : ∀ (u : Fin 1) (f : Fin 128), v112 (ix2 u f) = ((bp f : ℝ) : EReal)) (i j : Fin 64) (f : Fin 128) :
    k0_pay20 (F := Ideal) v73 v112 (ix3 i j f) = ((bp f * E i j : ℝ) : EReal) := by
  unfold k0_pay20
  try dsimp only
  simp only [mulf_apply]
  rw [Cert.KerLayout.bcast_11c_abc, Cert.KerLayout.bcast_ab1_abc, Cert.KerLayout.cast_ab_ab1, shapeCast_ab_1ab_apply,
    truncf_apply, shapeCast_self, hbp, hE, EReal.coe_mul]

/-- The output entry from the activation and the bias of its pair (i, j). -/
theorem pay1_at (v128 v133 : FVec Ideal S64x64x128 .bf16) (v136 : FVec Ideal S128x128 .bf16) (v140 : FVec Ideal S1x128 .f32)
    (i j : Fin 64) (act bias : Fin 128 → ℝ) (W2 : Fin 128 → Fin 128 → ℝ) (b2 : Fin 128 → ℝ)
    (h128 : ∀ f : Fin 128, v128 (ix3 i j f) = ((act f : ℝ) : EReal))
    (h133 : ∀ f : Fin 128, v133 (ix3 i j f) = ((bias f : ℝ) : EReal))
    (h136 : ∀ (d f : Fin 128), v136 (ix2 d f) = ((W2 d f : ℝ) : EReal))
    (h140 : ∀ (u : Fin 1) (d : Fin 128), v140 (ix2 u d) = ((b2 d : ℝ) : EReal)) (u : Fin 1) (d : Fin 128) :
    k0_pay1 (F := Ideal) v128 v133 v136 v140 (ix4 u i j d)
      = (((∑ f : Fin 128, (act f + bias f) * W2 d f) + b2 d : ℝ) : EReal) := by
  unfold k0_pay1
  try dsimp only
  rw [shapeCast_abc_1abc_apply]
  simp only [addf_apply]
  rw [EReal.coe_add]
  refine congrArg₂ (· + ·) ?_ ?_
  · rw [Cert.KerLayout.cast_mc_abc, Cert.KerDot.dot_4096_128, ← Cert.Spec.coe_sum]
    refine Finset.sum_congr rfl fun f _ => ?_
    rw [Cert.KerLayout.cast_abc_mc, shapeCast_self, addf_apply, h128, h133, h136, ← EReal.coe_add, ← EReal.coe_mul]
  · rw [Cert.KerLayout.bcast_11c_abc, shapeCast_ab_1ab_apply, shapeCast_self, h140]

/-- The normalised, rectified activation. -/
theorem pay19_at (v30 : FVec Ideal S64x128 .f32) (v31 v32 : FVec Ideal S64x128 .bf16) (v57 v65 v70 : FVec Ideal S64x64 .f32)
    (v73 : FVec Ideal S64x64 .bf16) (v80 : FVec Ideal S64x1 .f32) (v81 : FVec Ideal S64x64 .f32)
    (v106 v109 : FVec Ideal S1x128 .f32)
    (A P Q : Fin 64 → Fin 128 → ℝ) (MB EB E CM : Fin 64 → Fin 64 → ℝ) (CH : Fin 64 → ℝ) (g be : Fin 128 → ℝ)
    (h30 : ∀ (i : Fin 64) (f : Fin 128), v30 (ix2 i f) = ((A i f : ℝ) : EReal))
    (h31 : ∀ (i : Fin 64) (f : Fin 128), v31 (ix2 i f) = ((P i f : ℝ) : EReal))
    (h32 : ∀ (j : Fin 64) (f : Fin 128), v32 (ix2 j f) = ((Q j f : ℝ) : EReal))
    (h57 : ∀ (i j : Fin 64), v57 (ix2 i j) = ((MB i j : ℝ) : EReal))
    (h65 : ∀ (i j : Fin 64), v65 (ix2 i j) = ((EB i j : ℝ) : EReal))
    (h70 : ∀ (i j : Fin 64), v70 (ix2 i j) = ((E i j : ℝ) : EReal))
    (h73 : ∀ (i j : Fin 64), v73 (ix2 i j) = ((E i j : ℝ) : EReal))
    (h80 : ∀ (i : Fin 64) (u : Fin 1), v80 (ix2 i u) = ((CH i : ℝ) : EReal))
    (h81 : ∀ (i j : Fin 64), v81 (ix2 i j) = ((CM i j : ℝ) : EReal))
    (h106 : ∀ (u : Fin 1) (f : Fin 128), v106 (ix2 u f) = ((g f : ℝ) : EReal))
    (h109 : ∀ (u : Fin 1) (f : Fin 128), v109 (ix2 u f) = ((be f : ℝ) : EReal))
    (i j : Fin 64) (f : Fin 128)
    (hpos : 0 < ((EB i j + E i j * CH i) - (MB i j + E i j * CM i j) * (MB i j + E i j * CM i j)) + Cert.Consts.epsR) :
    k0_pay19 (F := Ideal) v30 v31 v32 v57 v65 v70 v73 v80 v81 v106 v109 (ix3 i j f)
      = ((max (((E i j * A i f + P i f + Q j f) - (MB i j + E i j * CM i j))
          * (Real.sqrt (((EB i j + E i j * CH i) - (MB i j + E i j * CM i j) * (MB i j + E i j * CM i j)) + Cert.Consts.epsR))⁻¹
          * g f + be f) 0 : ℝ) : EReal) := by
  unfold k0_pay19
  try dsimp only
  simp only [maximumf_apply, addf_apply, mulf_apply, subf_apply, broadcast_apply, truncf_apply, rsqrt_at,
    Cert.KerLayout.bcast_ab1_abc, Cert.KerLayout.cast_ab_ab1, Cert.KerLayout.bcast_a1c_abc, Cert.KerLayout.cast_ac_a1c,
    Cert.KerLayout.bcast_1bc_abc, shapeCast_ab_1ab_apply, Cert.KerLayout.bcast_11c_abc, shapeCast_self,
    Cert.KerLayout.bcast_a1_ab]
  simp only [h30, h31, h32, h57, h65, h70, h73, h80, h81, h106, h109,
    show Scalar.ofBits (F := Ideal) .f32 0x3727C5AC#32 = ((Cert.Consts.epsR : ℝ) : EReal) from Cert.Consts.ofBits_eps,
    show Scalar.ofBits (F := Ideal) .bf16 0x0000#16 = ((0 : ℝ) : EReal) from Cert.Consts.ofBits_zero_bf16]
  simp only [← EReal.coe_mul, ← EReal.coe_add, ← EReal.coe_sub]
  rw [Ideal.rsqrt_coe, if_neg (not_lt.2 hpos.le), if_neg hpos.ne']
  simp only [← EReal.coe_mul, ← EReal.coe_add, coe_max']

end Cert.KerPay

end
-- ==== Proof.KerMask.lean ====
/-
  The diagonal mask as the kernel builds it: two index grids of a 64 × 64 array, one counting rows and one counting
  columns, compared for equality; the one-bit answer widened to 32 bits and read as a signed integer.  At entry (p, q)
  this is 1 when p = q and 0 otherwise.
-/
import proofs.«154938_j27951647162476_2_alg».proof.Proof.Gen.KernelIdeal
import proofs.«154938_j27951647162476_2_alg».proof.Proof.Spec
import Idealize.ShloMosaic.Lib.ValueIdx

noncomputable section

namespace Cert.KerMask

open Cert.KernelIdeal Idealize.ShloMosaic Idealize.ShloMosaic.ValueIdx

/-- Two numbers below 64, compared as 32-bit words: the widened answer, read as an integer, is 1 or 0. -/
theorem eq_word (a b : Nat) (ha : a < 64) (hb : b < 64) :
    ((((IntOp.cmpi .eq (BitVec.ofNat 32 a) (BitVec.ofNat 32 b)).setWidth 32).toInt : ℤ) : ℝ) = if a = b then 1 else 0 := by
  by_cases h : a = b
  · subst h
    simp [IntOp.cmpi]
  · have hne : BitVec.ofNat 32 a ≠ BitVec.ofNat 32 b := by
      intro hc
      apply h
      have := congrArg BitVec.toNat hc
      simp only [BitVec.toNat_ofNat] at this
      omega
    have hbf : (BitVec.ofNat 32 a == BitVec.ofNat 32 b) = false := beq_eq_false_iff_ne.mpr hne
    simp [IntOp.cmpi, hbf, h]

/-- The kernel's mask at (p, q) is the diagonal mask of the specification. -/
theorem mask_apply (h0 : S64x64.Iotas .tc 32 [(0 : Fin 2)]) (h1 : S64x64.Iotas .tc 32 [(1 : Fin 2)]) (hlt : 1 < 32)
    (p q : Fin 64) :
    (sitofp (F := Ideal) .f32 (extui 32 (cmpi .eq (iota .tc S64x64 32 [(0 : Fin 2)] h0) (iota .tc S64x64 32 [(1 : Fin 2)] h1)) hlt))
        (ix2 p q) = ((Cert.Spec.e p q : ℝ) : EReal) := by
  show ((((IntOp.cmpi .eq (BitVec.ofNat 32 (0 * 64 + p.val)) (BitVec.ofNat 32 (0 * 64 + q.val))).setWidth 32).toInt : ℝ) : EReal) = _
  rw [Nat.zero_mul, Nat.zero_add, Nat.zero_add, eq_word p.val q.val p.isLt q.isLt]
  unfold Cert.Spec.e
  by_cases h : p = q
  · subst h; simp
  · have : p.val ≠ q.val := fun hc => h (Fin.ext hc)
    simp [h, this]

end Cert.KerMask

end
-- ==== Proof.KerOut.lean ====
/-
  One output block of the kernel at the extended reals, entry by entry, when the eight input blocks are arrays of reals:
  the block written at a grid point is the specification's rank-structured form outKer of the point's slice of x
  and of the weights.  The first weight matrix is read as five blocks of 128 columns; everything else is read whole.
  Positivity of variance-plus-epsilon at the pair (i, j) is a hypothesis here (it comes from the variance being a
  mean of squares).
-/
import proofs.«154938_j27951647162476_2_alg».proof.Proof.Gen.KernelIdeal.Frame
import proofs.«154938_j27951647162476_2_alg».proof.Proof.KerPayA
import proofs.«154938_j27951647162476_2_alg».proof.Proof.KerPayB
import proofs.«154938_j27951647162476_2_alg».proof.Proof.KerPayC
import proofs.«154938_j27951647162476_2_alg».proof.Proof.KerMask
import Idealize.ShloMosaic.Lib.Pipeline.Value

noncomputable section

namespace Cert.KerOut

open Cert.KernelIdeal Cert.KernelIdeal.Gen Cert.KerPay Idealize.ShloMosaic Idealize.ShloMosaic.ValueIdx
open Finset BigOperators

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The mask payloads are the diagonal mask. -/
theorem e15_at (p q : Fin 64) : k0_pay15 (F := Ideal) (ix2 p q) = ((Cert.Spec.e p q : ℝ) : EReal) := by
  unfold k0_pay15 k0_pay14
  exact Cert.KerMask.mask_apply _ _ _ p q

theorem e16_at (p q : Fin 64) : k0_pay16 (F := Ideal) (ix2 p q) = ((Cert.Spec.e p q : ℝ) : EReal) := by
  unfold k0_pay16 k0_pay14
  exact Cert.KerMask.mask_apply _ _ _ p q

section
variable (x1 : Vec Ideal S128x640 .bf16) (W1 : Fin 128 → Fin 640 → ℝ)
  (hx1 : ∀ (f : Fin 128) (k : Fin 640), x1 (ix2 f k) = ((W1 f k : ℝ) : EReal))
include hx1

/-- The five blocks of 128 columns of the first weight matrix, as loaded. -/
theorem ld_w1_0 (f k : Fin 128) : View.ld x1 r0_1 (ix2 f k) = ((W1 f (Cert.Spec.col 0 k) : ℝ) : EReal) := by
  rw [← hx1]
  exact congrArg x1 (funext fun a => Fin.ext (by
    match a with
    | ⟨0, _⟩ => show 0 + 1 * f.val = f.val; omega
    | ⟨1, _⟩ => show 0 + 1 * k.val = 128 * 0 + k.val; omega))
theorem ld_w1_1 (f k : Fin 128) : View.ld x1 r0_2 (ix2 f k) = ((W1 f (Cert.Spec.col 1 k) : ℝ) : EReal) := by
  rw [← hx1]
  exact congrArg x1 (funext fun a => Fin.ext (by
    match a with
    | ⟨0, _⟩ => show 0 + 1 * f.val = f.val; omega
    | ⟨1, _⟩ => show 128 + 1 * k.val = 128 * 1 + k.val; omega))
theorem ld_w1_2 (f k : Fin 128) : View.ld x1 r0_3 (ix2 f k) = ((W1 f (Cert.Spec.col 2 k) : ℝ) : EReal) := by
  rw [← hx1]
  exact congrArg x1 (funext fun a => Fin.ext (by
    match a with
    | ⟨0, _⟩ => show 0 + 1 * f.val = f.val; omega
    | ⟨1, _⟩ => show 256 + 1 * k.val = 128 * 2 + k.val; omega))
theorem ld_w1_3 (f k : Fin 128) : View.ld x1 r0_4 (ix2 f k) = ((W1 f (Cert.Spec.col 3 k) : ℝ) : EReal) := by
  rw [← hx1]
  exact congrArg x1 (funext fun a => Fin.ext (by
    match a with
    | ⟨0, _⟩ => show 0 + 1 * f.val = f.val; omega
    | ⟨1, _⟩ => show 384 + 1 * k.val = 128 * 3 + k.val; omega))
theorem ld_w1_4 (f k : Fin 128) : View.ld x1 r0_5 (ix2 f k) = ((W1 f (Cert.Spec.col 4 k) : ℝ) : EReal) := by
  rw [← hx1]
  exact congrArg x1 (funext fun a => Fin.ext (by
    match a with
    | ⟨0, _⟩ => show 0 + 1 * f.val = f.val; omega
    | ⟨1, _⟩ => show 512 + 1 * k.val = 128 * 4 + k.val; omega))
end

/-- The block the kernel writes at a grid point, read at (0, i, j, d): the specification's outKer. -/
theorem out_block (x0 : Vec Ideal S1x64x128 .f32) (x1 : Vec Ideal S128x640 .bf16) (x2 x3 x4 x5 : Vec Ideal S1x128 .f32)
    (x6 : Vec Ideal S128x128 .bf16) (x7 : Vec Ideal S1x128 .f32)
    (x : Fin 64 → Fin 128 → ℝ) (W1 : Fin 128 → Fin 640 → ℝ) (b1 ga be bp : Fin 128 → ℝ) (W2 : Fin 128 → Fin 128 → ℝ)
    (b2 : Fin 128 → ℝ)
    (hx0 : ∀ (r : Fin 64) (k : Fin 128), x0 (ix3 (0 : Fin 1) r k) = ((x r k : ℝ) : EReal))
    (hx1 : ∀ (f : Fin 128) (k : Fin 640), x1 (ix2 f k) = ((W1 f k : ℝ) : EReal))
    (hx2 : ∀ (u : Fin 1) (f : Fin 128), x2 (ix2 u f) = ((b1 f : ℝ) : EReal))
    (hx3 : ∀ (u : Fin 1) (f : Fin 128), x3 (ix2 u f) = ((ga f : ℝ) : EReal))
    (hx4 : ∀ (u : Fin 1) (f : Fin 128), x4 (ix2 u f) = ((be f : ℝ) : EReal))
    (hx5 : ∀ (u : Fin 1) (f : Fin 128), x5 (ix2 u f) = ((bp f : ℝ) : EReal))
    (hx6 : ∀ (d f : Fin 128), x6 (ix2 d f) = ((W2 d f : ℝ) : EReal))
    (hx7 : ∀ (u : Fin 1) (d : Fin 128), x7 (ix2 u d) = ((b2 d : ℝ) : EReal))
    (i j : Fin 64) (d : Fin 128)
    (hpos : 0 < Cert.Spec.varKer x W1 b1 i j + Cert.Consts.epsR) :
    out0_8 (F := Ideal) x0 x1 x2 x3 x4 x5 x6 x7 (ix4 (0 : Fin 1) i j d)
      = ((Cert.Spec.outKer x W1 b1 ga be bp W2 b2 Cert.Consts.epsR i j d : ℝ) : EReal) := by
  have l0 : View.ld x0 r0_0 = x0 := View.ld_unit_zero hz3 _ x0
  have l2 : View.ld x2 r0_6 = x2 := View.ld_unit_zero hz2 _ x2
  have l3 : View.ld x3 r0_6 = x3 := View.ld_unit_zero hz2 _ x3
  have l4 : View.ld x4 r0_6 = x4 := View.ld_unit_zero hz2 _ x4
  have l5 : View.ld x5 r0_6 = x5 := View.ld_unit_zero hz2 _ x5
  have l6 : View.ld x6 r0_7 = x6 := View.ld_unit_zero hz2 _ x6
  have l7 : View.ld x7 r0_6 = x7 := View.ld_unit_zero hz2 _ x7
  unfold out0_8
  rw [View.canon_unit_zero hz4, l0, l2, l3, l4, l5, l6, l7]
  -- the three matrices of the rank structure and their statistics, each as the specification names it
  have hA : ∀ (i : Fin 64) (f : Fin 128), k0_pay7 (F := Ideal) x0 (View.ld x1 r0_1) (View.ld x1 r0_4) (ix2 i f)
      = ((Cert.Spec.diagA x W1 i f : ℝ) : EReal) := fun i f =>
    pay7_at x0 x hx0 _ _ (fun f k => W1 f (Cert.Spec.col 0 k)) (fun f k => W1 f (Cert.Spec.col 3 k))
      (ld_w1_0 x1 W1 hx1) (ld_w1_3 x1 W1 hx1) i f
  have hP6 : ∀ (i : Fin 64) (f : Fin 128), k0_pay6 (F := Ideal) x0 (View.ld x1 r0_2) (View.ld x1 r0_5) x2 (ix2 i f)
      = ((Cert.Spec.rowP x W1 b1 i f : ℝ) : EReal) := fun i f =>
    pay6_at x0 x hx0 _ _ x2 (fun f k => W1 f (Cert.Spec.col 1 k)) (fun f k => W1 f (Cert.Spec.col 4 k)) b1
      (ld_w1_1 x1 W1 hx1) (ld_w1_4 x1 W1 hx1) hx2 i f
  have hP8 : ∀ (i : Fin 64) (f : Fin 128), k0_pay8 (F := Ideal) x0 (View.ld x1 r0_2) (View.ld x1 r0_5) x2 (ix2 i f)
      = ((Cert.Spec.rowP x W1 b1 i f : ℝ) : EReal) := fun i f =>
    pay8_at x0 x hx0 _ _ x2 (fun f k => W1 f (Cert.Spec.col 1 k)) (fun f k => W1 f (Cert.Spec.col 4 k)) b1
      (ld_w1_1 x1 W1 hx1) (ld_w1_4 x1 W1 hx1) hx2 i f
  have hQ4 : ∀ (j : Fin 64) (f : Fin 128), k0_pay4 (F := Ideal) x0 (View.ld x1 r0_3) (ix2 j f)
      = ((Cert.Spec.rowQ x W1 j f : ℝ) : EReal) := fun j f =>
    pay4_at x0 x hx0 _ (fun f k => W1 f (Cert.Spec.col 2 k)) (ld_w1_2 x1 W1 hx1) j f
  have hQ9 : ∀ (j : Fin 64) (f : Fin 128), k0_pay9 (F := Ideal) x0 (View.ld x1 r0_3) (ix2 j f)
      = ((Cert.Spec.rowQ x W1 j f : ℝ) : EReal) := fun j f =>
    pay9_at x0 x hx0 _ (fun f k => W1 f (Cert.Spec.col 2 k)) (ld_w1_2 x1 W1 hx1) j f
  have hq11 : ∀ (u : Fin 1) (j : Fin 64), k0_pay11 (F := Ideal) x0 (View.ld x1 r0_3) (ix2 u j)
      = ((∑ f : Fin 128, 1 * Cert.Spec.rowQ x W1 j f : ℝ) : EReal) := fun u j =>
    pay11_at x0 x hx0 _ (fun f k => W1 f (Cert.Spec.col 2 k)) (ld_w1_2 x1 W1 hx1) u j
  have hMB := fun (i j : Fin 64) => pay12_at _ _ (Cert.Spec.rowP x W1 b1) (fun j => ∑ f : Fin 128, 1 * Cert.Spec.rowQ x W1 j f)
    hP6 hq11 i j
  have hEB := fun (i j : Fin 64) => pay13_at _ _ _ _ _ (Cert.Spec.rowP x W1 b1) (Cert.Spec.rowQ x W1)
    hQ4 hP6 hP8 hQ9 (pay10_at) i j
  have hCH := fun (i : Fin 64) (u : Fin 1) => pay17_at _ _ _ (Cert.Spec.rowP x W1 b1) (Cert.Spec.rowQ x W1) (Cert.Spec.diagA x W1)
    hQ4 hP6 hA i u
  have hCM := fun (i j : Fin 64) => pay18_at _ (Cert.Spec.diagA x W1) hA i j
  have hact := fun (f : Fin 128) => pay19_at _ _ _ _ _ _ _ _ _ x3 x4
    (Cert.Spec.diagA x W1) (Cert.Spec.rowP x W1 b1) (Cert.Spec.rowQ x W1)
    (fun i j => ((∑ f : Fin 128, Cert.Spec.rowP x W1 b1 i f) + (∑ f : Fin 128, 1 * Cert.Spec.rowQ x W1 j f)) * (1 / 128))
    (fun i j => ((∑ f : Fin 128, Cert.Spec.rowP x W1 b1 i f * Cert.Spec.rowP x W1 b1 i f)
        + 2 * (∑ f : Fin 128, Cert.Spec.rowP x W1 b1 i f * Cert.Spec.rowQ x W1 j f)
        + (∑ f : Fin 128, 1 * (Cert.Spec.rowQ x W1 j f * Cert.Spec.rowQ x W1 j f))) * (1 / 128))
    Cert.Spec.e
    (fun i _ => (∑ f : Fin 128, Cert.Spec.diagA x W1 i f) * (1 / 128))
    (fun i => (2 * (∑ f : Fin 128, Cert.Spec.diagA x W1 i f * (Cert.Spec.rowP x W1 b1 i f + Cert.Spec.rowQ x W1 i f))
        + (∑ f : Fin 128, Cert.Spec.diagA x W1 i f * Cert.Spec.diagA x W1 i f)) * (1 / 128))
    ga be hA hP8 hQ9 hMB hEB e15_at e16_at hCH hCM hx3 hx4 i j f hpos
  have hbias := fun (f : Fin 128) => pay20_at _ x5 Cert.Spec.e bp e16_at hx5 i j f
  exact pay1_at _ _ x6 x7 i j _ _ W2 b2 hact hbias hx6 hx7 0 d

end Cert.KerOut

end
-- ==== Proof.Algebra.lean ====
/-
  Pure real algebra: the function spelled through its rank structure (`outKer`) is the function as written
  (`outRef`).  The mask `e i j` is 0 or 1, and when it is 1 the two row indices agree; the five block sums are
  linear in the mask; the variance of a row of 128 numbers is the mean of squares minus the square of the mean.
-/
import proofs.«154938_j27951647162476_2_alg».proof.Proof.Spec

noncomputable section

namespace Cert.Spec

open Finset BigOperators

/-! ### Two identities about a row of 128 reals -/

/-- If the row sums to `128 * m`, the mean of squares minus `m²` is the mean squared deviation from `m`. -/
theorem mean_sq_sub_sq (h : Fin 128 → ℝ) (m : ℝ) (hS : ∑ f : Fin 128, h f = 128 * m) :
    (∑ f : Fin 128, h f * h f) / 128 - m * m = (∑ f : Fin 128, (h f - m) * (h f - m)) / 128 := by
  have h2 : ∀ f : Fin 128, (h f - m) * (h f - m) = h f * h f - 2 * m * h f + m * m := fun f => by ring
  have h1 : ∑ f : Fin 128, (h f - m) * (h f - m)
      = (∑ f : Fin 128, h f * h f) - 2 * m * (∑ f : Fin 128, h f) + 128 * (m * m) := by
    rw [Finset.sum_congr rfl (fun f _ => h2 f), Finset.sum_add_distrib, Finset.sum_sub_distrib,
      ← Finset.mul_sum, Finset.sum_const, Finset.card_univ, Fintype.card_fin, nsmul_eq_mul]
    norm_num
  rw [h1, hS]
  ring

/-- The sum of squares of `c • A + P + Q`, expanded. -/
theorem sum_sq_expand (A P Q : Fin 128 → ℝ) (c : ℝ) :
    ∑ f : Fin 128, (c * A f + P f + Q f) * (c * A f + P f + Q f)
      = (∑ f : Fin 128, P f * P f) + 2 * (∑ f : Fin 128, P f * Q f) + (∑ f : Fin 128, Q f * Q f)
        + c * (2 * (∑ f : Fin 128, A f * (P f + Q f))) + c * c * (∑ f : Fin 128, A f * A f) := by
  simp only [Finset.mul_sum, ← Finset.sum_add_distrib]
  exact Finset.sum_congr rfl (fun f _ => by ring)

section
variable (x : Fin 64 → Fin 128 → ℝ) (W1 : Fin 128 → Fin 640 → ℝ) (b1 ga be bp : Fin 128 → ℝ)
  (W2 : Fin 128 → Fin 128 → ℝ) (b2 : Fin 128 → ℝ) (eps : ℝ) (i j : Fin 64) (f d : Fin 128)

/-- The mask on the diagonal. -/
theorem e_self : e i i = 1 := by simp [e]

/-- The mask off the diagonal. -/
theorem e_of_ne (hij : i ≠ j) : e i j = 0 := by simp [e, hij]

/-- The pre-activation: the five block sums are linear in the mask. -/
theorem hKer_eq_hRef : hKer x W1 b1 i j f = hRef x W1 b1 i j f := by
  have h0 : (∑ k : Fin 128, (x i k * e i j) * W1 f (col 0 k)) = e i j * projA x W1 i f := by
    unfold projA
    rw [Finset.mul_sum]
    exact Finset.sum_congr rfl (fun k _ => by ring)
  have h3 : (∑ k : Fin 128, (mean x k * e i j) * W1 f (col 3 k)) = e i j * projD x W1 f := by
    unfold projD
    rw [Finset.mul_sum]
    exact Finset.sum_congr rfl (fun k _ => by ring)
  unfold hKer hRef
  rw [h0, h3]
  unfold diagA rowP rowQ projB projC projE
  ring

/-- The row sum of the pre-activation through the rank structure. -/
theorem sum_hKer :
    ∑ f : Fin 128, hKer x W1 b1 i j f
      = e i j * (∑ f : Fin 128, diagA x W1 i f) + (∑ f : Fin 128, rowP x W1 b1 i f)
        + (∑ f : Fin 128, rowQ x W1 j f) := by
  unfold hKer
  rw [Finset.sum_add_distrib, Finset.sum_add_distrib, Finset.mul_sum]

/-- The two row sums agree. -/
theorem sum_hRef_eq_sum_hKer :
    (∑ f : Fin 128, hRef x W1 b1 i j f) = ∑ f : Fin 128, hKer x W1 b1 i j f :=
  Finset.sum_congr rfl (fun f _ => (hKer_eq_hRef x W1 b1 i j f).symm)

/-- The mean of a row. -/
theorem muKer_eq_muRef : muKer x W1 b1 i j = muRef x W1 b1 i j := by
  unfold muKer muRef
  rw [sum_hRef_eq_sum_hKer, sum_hKer]
  simp only [one_mul]
  ring

/-- The variance as written is a mean of squares. -/
theorem varRef_nonneg : 0 ≤ varRef x W1 b1 i j := by
  unfold varRef
  apply div_nonneg
  · exact Finset.sum_nonneg (fun f _ => mul_self_nonneg _)
  · norm_num

/-- The mean of squares of a row, read off the rank structure. -/
theorem eh2Ker_eq :
    eh2Ker x W1 b1 i j = (∑ f : Fin 128, hKer x W1 b1 i j f * hKer x W1 b1 i j f) / 128 := by
  unfold eh2Ker hKer
  rw [sum_sq_expand (diagA x W1 i) (rowP x W1 b1 i) (rowQ x W1 j) (e i j)]
  by_cases hij : i = j
  · subst hij
    simp only [e_self, one_mul]
    ring
  · simp only [e_of_ne i j hij, one_mul, zero_mul]
    ring

/-- The row sum is 128 times the mean. -/
theorem sum_hKer_eq_mul_muRef : ∑ f : Fin 128, hKer x W1 b1 i j f = 128 * muRef x W1 b1 i j := by
  unfold muRef
  rw [sum_hRef_eq_sum_hKer]
  ring

/-- The variance: mean of squares minus square of the mean is the mean squared deviation. -/
theorem varKer_eq_varRef : varKer x W1 b1 i j = varRef x W1 b1 i j := by
  unfold varKer varRef
  rw [eh2Ker_eq, muKer_eq_muRef,
    mean_sq_sub_sq (hKer x W1 b1 i j) (muRef x W1 b1 i j) (sum_hKer_eq_mul_muRef x W1 b1 i j)]
  exact congrArg (fun s => s / 128)
    (Finset.sum_congr rfl (fun f _ => by rw [hKer_eq_hRef]))

/-- The activation: a quotient by the standard deviation is a product with its inverse. -/
theorem actKer_eq_actRef : actKer x W1 b1 ga be bp eps i j f = actRef x W1 b1 ga be bp eps i j f := by
  unfold actKer actRef
  rw [hKer_eq_hRef, muKer_eq_muRef, varKer_eq_varRef, div_eq_mul_inv]

/-- The output. -/
theorem outKer_eq_outRef (_heps : 0 < eps) :
    outKer x W1 b1 ga be bp W2 b2 eps i j d = outRef x W1 b1 ga be bp W2 b2 eps i j d := by
  unfold outKer outRef
  rw [Finset.sum_congr rfl (fun f _ => by rw [actKer_eq_actRef])]

end

end Cert.Spec

end
-- ==== Proof.RefLeg.lean ====
/-
  The reference program read at an index is the real specification `Cert.Spec.outRef`.

  Every stage of the reference is read at explicit coordinates `(b, n, i, j, ·)` and identified with a coerced real:
  the diagonal mask, the column means of the slice, the five blocks laid side by side along the last axis, the first
  contraction with its bias, the mean and the variance of a row of 128, the normalised and affinely rescaled value,
  its positive part, the diagonal bias, and the second contraction with its bias.
-/
import proofs.«154938_j27951647162476_2_alg».proof.Proof.Gen.ReferenceIdeal.Read
import proofs.«154938_j27951647162476_2_alg».proof.Proof.Spec
import proofs.«154938_j27951647162476_2_alg».proof.Proof.Consts

noncomputable section

namespace Cert.RefLeg

open Cert.ReferenceIdeal Cert.ReferenceIdeal.Read Idealize.ShloMosaic Idealize.ShloMosaic.ValueIdx
open Finset BigOperators

/-! ### The diagonal mask -/

/-- Two coordinates below 64 are equal as 32-bit words only if they are equal. -/
theorem ofNat_inj_of_lt (i j : Fin 64) (h : BitVec.ofNat 32 i.val = BitVec.ofNat 32 j.val) : i = j := by
  have h2 := congrArg BitVec.toNat h
  simp only [BitVec.toNat_ofNat] at h2
  have hi := i.isLt
  have hj := j.isLt
  exact Fin.ext (by omega)

/-- The mask: the bit `i + 0 = j` converted to a float is read exactly, so it is `1` on the diagonal and `0` off it. -/
theorem mask (i j : Fin 64) :
    val_main_v5 (F := Ideal) (ix2 i j) = ((Cert.Spec.e i j : ℝ) : EReal) := by
  rw [val_main_v5_apply, val_main_v4_apply, val_main_v3_apply, val_main_v0_apply, val_main_v1_apply,
    val_main_v2_apply, val_main_c_apply]
  show (((IntOp.cmpi .eq (IntOp.addi (BitVec.ofNat 32 i.val) 0#32) (BitVec.ofNat 32 j.val)).toNat : ℝ) : EReal) = _
  unfold Cert.Spec.e IntOp.cmpi IntOp.addi
  by_cases h : i = j
  · subst h
    rw [if_pos rfl]
    simp
  · rw [if_neg h]
    have hne : (BitVec.ofNat 32 i.val + 0#32 == BitVec.ofNat 32 j.val) = false := by
      rw [beq_eq_false_iff_ne, BitVec.add_zero]
      exact fun hh => h (ofNat_inj_of_lt i j hh)
    simp only [hne]
    simp

section
variable (X : S4x8x64x128.Idx → ℝ)

/-! ### The slice and its column means -/

/-- The mask broadcast along the last axis. -/
theorem mask3 (i j : Fin 64) :
    val_main_v6 (F := Ideal) (ix3 i j (0 : Fin 1)) = ((Cert.Spec.e i j : ℝ) : EReal) := by
  rw [val_main_v6_apply, ← mask i j]
  exact congrArg (val_main_v5 (F := Ideal)) (funext fun a => Fin.ext (by match a with | ⟨0, _⟩ => rfl | ⟨1, _⟩ => rfl))

/-- The column mean of the slice `(b, n)`: the sum over the 64 rows divided by 64. -/
theorem mean_stage (b : Fin 4) (n : Fin 8) (k : Fin 128) :
    val_main_v13 (F := Ideal) (fun a => ((X a : ℝ) : EReal)) (ix5 b n (0 : Fin 1) (0 : Fin 1) k)
      = ((Cert.Spec.mean (fun r k => X (ix4 b n r k)) k : ℝ) : EReal) := by
  rw [val_main_v13_apply, val_main_v12_apply, val_main_v10_apply, val_main_v9_apply, val_main_v11_apply,
    val_main_cst_0_apply, val_main_cst_apply]
  simp only [Ideal.hostDivf_def, Ideal.ofBits_def, Cert.Consts.ofBits_zero, Cert.Consts.ofBits_64, zero_add]
  rw [Ideal.div_coe (by norm_num : (64 : ℝ) ≠ 0)]
  have hidx : ∀ r : Fin 64,
      idx_main_v9 (idx_main_v10 (idx_main_v13 (ix5 b n (0 : Fin 1) (0 : Fin 1) k))) r = ix4 b n r k := fun r =>
    funext fun a => Fin.ext (by match a with | ⟨0, _⟩ => rfl | ⟨1, _⟩ => rfl | ⟨2, _⟩ => rfl | ⟨3, _⟩ => rfl)
  simp only [hidx]
  rw [Cert.Spec.coe_sum, ← EReal.coe_mul]
  refine congrArg _ ?_
  simp only [Cert.Spec.mean]
  rw [one_div, div_eq_mul_inv]

/-! ### The five blocks -/

/-- Block 1: row `i` of the slice. -/
theorem piece1 (b : Fin 4) (n : Fin 8) (i j : Fin 64) (k : Fin 128) :
    val_main_v18 (F := Ideal) (fun a => ((X a : ℝ) : EReal)) (ix5 b n i j k) = ((X (ix4 b n i k) : ℝ) : EReal) := by
  rw [val_main_v18_apply, val_main_v7_apply]
  exact congrArg (fun a => ((X a : ℝ) : EReal)) (funext fun a => Fin.ext (by
    match a with | ⟨0, _⟩ => rfl | ⟨1, _⟩ => rfl | ⟨2, _⟩ => rfl | ⟨3, _⟩ => rfl))

/-- Block 2: row `j` of the slice. -/
theorem piece2 (b : Fin 4) (n : Fin 8) (i j : Fin 64) (k : Fin 128) :
    val_main_v19 (F := Ideal) (fun a => ((X a : ℝ) : EReal)) (ix5 b n i j k) = ((X (ix4 b n j k) : ℝ) : EReal) := by
  rw [val_main_v19_apply, val_main_v8_apply]
  exact congrArg (fun a => ((X a : ℝ) : EReal)) (funext fun a => Fin.ext (by
    match a with | ⟨0, _⟩ => rfl | ⟨1, _⟩ => rfl | ⟨2, _⟩ => rfl | ⟨3, _⟩ => rfl))

/-- Block 0: row `i` of the slice on the diagonal, zero off it. -/
theorem piece0 (b : Fin 4) (n : Fin 8) (i j : Fin 64) (k : Fin 128) :
    val_main_v17 (F := Ideal) (fun a => ((X a : ℝ) : EReal)) (ix5 b n i j k)
      = ((X (ix4 b n i k) * Cert.Spec.e i j : ℝ) : EReal) := by
  rw [val_main_v17_apply, val_main_v15_apply, val_main_v7_apply, val_main_v16_apply, val_main_v14_apply]
  have h1 : idx_main_v7 (idx_main_v15 (ix5 b n i j k)) = ix4 b n i k :=
    funext fun a => Fin.ext (by match a with | ⟨0, _⟩ => rfl | ⟨1, _⟩ => rfl | ⟨2, _⟩ => rfl | ⟨3, _⟩ => rfl)
  have h2 : idx_main_v14 (idx_main_v16 (ix5 b n i j k)) = ix3 i j (0 : Fin 1) :=
    funext fun a => Fin.ext (by match a with | ⟨0, _⟩ => rfl | ⟨1, _⟩ => rfl | ⟨2, _⟩ => rfl)
  rw [h1, h2, mask3, Ideal.mulf_def, ← EReal.coe_mul]

/-- Block 4: the column mean. -/
theorem piece4 (b : Fin 4) (n : Fin 8) (i j : Fin 64) (k : Fin 128) :
    val_main_v24 (F := Ideal) (fun a => ((X a : ℝ) : EReal)) (ix5 b n i j k)
      = ((Cert.Spec.mean (fun r k => X (ix4 b n r k)) k : ℝ) : EReal) := by
  rw [val_main_v24_apply, ← mean_stage X b n k]
  exact congrArg (val_main_v13 (F := Ideal) (fun a => ((X a : ℝ) : EReal))) (funext fun a => Fin.ext (by
    match a with | ⟨0, _⟩ => rfl | ⟨1, _⟩ => rfl | ⟨2, _⟩ => rfl | ⟨3, _⟩ => rfl | ⟨4, _⟩ => rfl))

/-- Block 3: the column mean on the diagonal, zero off it. -/
theorem piece3 (b : Fin 4) (n : Fin 8) (i j : Fin 64) (k : Fin 128) :
    val_main_v23 (F := Ideal) (fun a => ((X a : ℝ) : EReal)) (ix5 b n i j k)
      = ((Cert.Spec.mean (fun r k => X (ix4 b n r k)) k * Cert.Spec.e i j : ℝ) : EReal) := by
  rw [val_main_v23_apply, val_main_v21_apply, val_main_v22_apply, val_main_v20_apply]
  have h1 : idx_main_v21 (ix5 b n i j k) = ix5 b n (0 : Fin 1) (0 : Fin 1) k :=
    funext fun a => Fin.ext (by
      match a with | ⟨0, _⟩ => rfl | ⟨1, _⟩ => rfl | ⟨2, _⟩ => rfl | ⟨3, _⟩ => rfl | ⟨4, _⟩ => rfl)
  have h2 : idx_main_v20 (idx_main_v22 (ix5 b n i j k)) = ix3 i j (0 : Fin 1) :=
    funext fun a => Fin.ext (by match a with | ⟨0, _⟩ => rfl | ⟨1, _⟩ => rfl | ⟨2, _⟩ => rfl)
  rw [h1, h2, mean_stage, mask3, Ideal.mulf_def, ← EReal.coe_mul]

end

section
variable (X : S4x8x64x128.Idx → ℝ)

/-! ### The five blocks side by side -/

/-- The concatenation along the last axis, read in block 0. -/
theorem cat0 (b : Fin 4) (n : Fin 8) (i j : Fin 64) (k : Fin 128) :
    val_main_v25 (F := Ideal) (fun a => ((X a : ℝ) : EReal)) (ix5 b n i j (Cert.Spec.col 0 k))
      = val_main_v17 (F := Ideal) (fun a => ((X a : ℝ) : EReal)) (ix5 b n i j k) := by
  unfold val_main_v25
  refine concatenate_apply_piece _ _ _ (ix5 b n i j (Cert.Spec.col 0 k)) 0 (by show (_ : Nat) < 5; decide) S4x8x64x64x128
    (val_main_v17 (F := Ideal) (fun a => ((X a : ℝ) : EReal))) rfl rfl 0 rfl (ix5 b n i j k) ?_ rfl
  intro c hc
  match c with
  | ⟨0, _⟩ => rfl
  | ⟨1, _⟩ => rfl
  | ⟨2, _⟩ => rfl
  | ⟨3, _⟩ => rfl
  | ⟨4, _⟩ => exact absurd rfl hc

/-- The concatenation along the last axis, read in block 1. -/
theorem cat1 (b : Fin 4) (n : Fin 8) (i j : Fin 64) (k : Fin 128) :
    val_main_v25 (F := Ideal) (fun a => ((X a : ℝ) : EReal)) (ix5 b n i j (Cert.Spec.col 1 k))
      = val_main_v18 (F := Ideal) (fun a => ((X a : ℝ) : EReal)) (ix5 b n i j k) := by
  unfold val_main_v25
  refine concatenate_apply_piece _ _ _ (ix5 b n i j (Cert.Spec.col 1 k)) 1 (by show (_ : Nat) < 5; decide) S4x8x64x64x128
    (val_main_v18 (F := Ideal) (fun a => ((X a : ℝ) : EReal))) rfl rfl 128 rfl (ix5 b n i j k) ?_ rfl
  intro c hc
  match c with
  | ⟨0, _⟩ => rfl
  | ⟨1, _⟩ => rfl
  | ⟨2, _⟩ => rfl
  | ⟨3, _⟩ => rfl
  | ⟨4, _⟩ => exact absurd rfl hc

/-- The concatenation along the last axis, read in block 2. -/
theorem cat2 (b : Fin 4) (n : Fin 8) (i j : Fin 64) (k : Fin 128) :
    val_main_v25 (F := Ideal) (fun a => ((X a : ℝ) : EReal)) (ix5 b n i j (Cert.Spec.col 2 k))
      = val_main_v19 (F := Ideal) (fun a => ((X a : ℝ) : EReal)) (ix5 b n i j k) := by
  unfold val_main_v25
  refine concatenate_apply_piece _ _ _ (ix5 b n i j (Cert.Spec.col 2 k)) 2 (by show (_ : Nat) < 5; decide) S4x8x64x64x128
    (val_main_v19 (F := Ideal) (fun a => ((X a : ℝ) : EReal))) rfl rfl 256 rfl (ix5 b n i j k) ?_ rfl
  intro c hc
  match c with
  | ⟨0, _⟩ => rfl
  | ⟨1, _⟩ => rfl
  | ⟨2, _⟩ => rfl
  | ⟨3, _⟩ => rfl
  | ⟨4, _⟩ => exact absurd rfl hc

/-- The concatenation along the last axis, read in block 3. -/
theorem cat3 (b : Fin 4) (n : Fin 8) (i j : Fin 64) (k : Fin 128) :
    val_main_v25 (F := Ideal) (fun a => ((X a : ℝ) : EReal)) (ix5 b n i j (Cert.Spec.col 3 k))
      = val_main_v23 (F := Ideal) (fun a => ((X a : ℝ) : EReal)) (ix5 b n i j k) := by
  unfold val_main_v25
  refine concatenate_apply_piece _ _ _ (ix5 b n i j (Cert.Spec.col 3 k)) 3 (by show (_ : Nat) < 5; decide) S4x8x64x64x128
    (val_main_v23 (F := Ideal) (fun a => ((X a : ℝ) : EReal))) rfl rfl 384 rfl (ix5 b n i j k) ?_ rfl
  intro c hc
  match c with
  | ⟨0, _⟩ => rfl
  | ⟨1, _⟩ => rfl
  | ⟨2, _⟩ => rfl
  | ⟨3, _⟩ => rfl
  | ⟨4, _⟩ => exact absurd rfl hc

/-- The concatenation along the last axis, read in block 4. -/
theorem cat4 (b : Fin 4) (n : Fin 8) (i j : Fin 64) (k : Fin 128) :
    val_main_v25 (F := Ideal) (fun a => ((X a : ℝ) : EReal)) (ix5 b n i j (Cert.Spec.col 4 k))
      = val_main_v24 (F := Ideal) (fun a => ((X a : ℝ) : EReal)) (ix5 b n i j k) := by
  unfold val_main_v25
  refine concatenate_apply_piece _ _ _ (ix5 b n i j (Cert.Spec.col 4 k)) 4 (by show (_ : Nat) < 5; decide) S4x8x64x64x128
    (val_main_v24 (F := Ideal) (fun a => ((X a : ℝ) : EReal))) rfl rfl 512 rfl (ix5 b n i j k) ?_ rfl
  intro c hc
  match c with
  | ⟨0, _⟩ => rfl
  | ⟨1, _⟩ => rfl
  | ⟨2, _⟩ => rfl
  | ⟨3, _⟩ => rfl
  | ⟨4, _⟩ => exact absurd rfl hc

end

section
variable (X : S4x8x64x128.Idx → ℝ) (W1 : S128x640.Idx → ℝ) (B1 : S128.Idx → ℝ)

/-! ### The first contraction and its bias -/

/-- The first contraction: the five blocks against the five column blocks of the weight, plus the bias. -/
theorem h_stage (b : Fin 4) (n : Fin 8) (i j : Fin 64) (f : Fin 128) :
    val_main_v29 (F := Ideal) (fun a => ((X a : ℝ) : EReal)) (fun a => ((W1 a : ℝ) : EReal))
        (fun a => ((B1 a : ℝ) : EReal)) (ix5 b n i j f)
      = ((Cert.Spec.hRef (fun r k => X (ix4 b n r k)) (fun f k => W1 (ix2 f k)) (fun f => B1 (ix1 f)) i j f : ℝ) : EReal) := by
  rw [val_main_v29_apply, val_main_v26_apply, val_main_v28_apply, val_main_v27_apply, Cert.Spec.sum_fin640]
  have hl : ∀ (s : Fin 5) (k : Fin 128),
      lidx_main_v26 (ix5 b n i j f) (Cert.Spec.col s k) = ix5 b n i j (Cert.Spec.col s k) := fun s k =>
    funext fun a => Fin.ext (by
      match a with | ⟨0, _⟩ => rfl | ⟨1, _⟩ => rfl | ⟨2, _⟩ => rfl | ⟨3, _⟩ => rfl | ⟨4, _⟩ => rfl)
  have hr : ∀ (s : Fin 5) (k : Fin 128),
      ridx_main_v26 (ix5 b n i j f) (Cert.Spec.col s k) = ix2 f (Cert.Spec.col s k) := fun s k =>
    funext fun a => Fin.ext (by match a with | ⟨0, _⟩ => rfl | ⟨1, _⟩ => rfl)
  have hb : idx_main_v27 (idx_main_v28 (ix5 b n i j f)) = ix1 f :=
    funext fun a => Fin.ext (by match a with | ⟨0, _⟩ => rfl)
  simp only [hl, hr, hb, cat0, cat1, cat2, cat3, cat4, piece0, piece1, piece2, piece3, piece4]
  simp only [Ideal.addf_def, ← EReal.coe_mul, Cert.Spec.coe_sum, ← EReal.coe_add]
  rfl

end

/-! ### Real-number facts used below -/

/-- The coercion of the reals into the extended reals commutes with `max`. -/
theorem coe_max (a c : ℝ) : ((max a c : ℝ) : EReal) = max (a : EReal) (c : EReal) :=
  EReal.coe_strictMono.monotone.map_max

/-- The variance of a row plus the small positive constant is positive: the variance is a mean of squares. -/
theorem var_eps_pos (x : Fin 64 → Fin 128 → ℝ) (W1 : Fin 128 → Fin 640 → ℝ) (b1 : Fin 128 → ℝ) (i j : Fin 64) :
    0 < Cert.Spec.varRef x W1 b1 i j + Cert.Consts.epsR := by
  refine add_pos_of_nonneg_of_pos ?_ Cert.Consts.epsR_pos
  unfold Cert.Spec.varRef
  exact div_nonneg (Finset.sum_nonneg fun _ _ => mul_self_nonneg _) (by norm_num)

section
variable (X : S4x8x64x128.Idx → ℝ) (W1 : S128x640.Idx → ℝ) (B1 : S128.Idx → ℝ)

/-! ### The mean and the variance of a row of 128 -/

/-- The row mean: the sum of the 128 entries divided by 128. -/
theorem mu_stage (b : Fin 4) (n : Fin 8) (i j : Fin 64) :
    val_main_v33 (F := Ideal) (fun a => ((X a : ℝ) : EReal)) (fun a => ((W1 a : ℝ) : EReal))
        (fun a => ((B1 a : ℝ) : EReal)) (ix5 b n i j (0 : Fin 1))
      = ((Cert.Spec.muRef (fun r k => X (ix4 b n r k)) (fun f k => W1 (ix2 f k)) (fun f => B1 (ix1 f)) i j : ℝ) : EReal) := by
  rw [val_main_v33_apply, val_main_v31_apply, val_main_v30_apply, val_main_v32_apply, val_main_cst_2_apply,
    val_main_cst_1_apply]
  have hidx : ∀ k : Fin 128, idx_main_v30 (idx_main_v31 (ix5 b n i j (0 : Fin 1))) k = ix5 b n i j k := fun k =>
    funext fun a => Fin.ext (by
      match a with | ⟨0, _⟩ => rfl | ⟨1, _⟩ => rfl | ⟨2, _⟩ => rfl | ⟨3, _⟩ => rfl | ⟨4, _⟩ => rfl)
  simp only [hidx, h_stage X W1 B1, Ideal.hostDivf_def, Ideal.ofBits_def, Cert.Consts.ofBits_zero,
    Cert.Consts.ofBits_128, zero_add]
  rw [Ideal.div_coe (by norm_num : (128 : ℝ) ≠ 0), Cert.Spec.coe_sum, ← EReal.coe_mul]
  refine congrArg _ ?_
  simp only [Cert.Spec.muRef]
  rw [one_div, div_eq_mul_inv]

/-- The squared deviation from the row mean. -/
theorem sq_stage (b : Fin 4) (n : Fin 8) (i j : Fin 64) (f : Fin 128) :
    val_main_v36 (F := Ideal) (fun a => ((X a : ℝ) : EReal)) (fun a => ((W1 a : ℝ) : EReal))
        (fun a => ((B1 a : ℝ) : EReal)) (ix5 b n i j f)
      = (((Cert.Spec.hRef (fun r k => X (ix4 b n r k)) (fun f k => W1 (ix2 f k)) (fun f => B1 (ix1 f)) i j f
            - Cert.Spec.muRef (fun r k => X (ix4 b n r k)) (fun f k => W1 (ix2 f k)) (fun f => B1 (ix1 f)) i j)
          * (Cert.Spec.hRef (fun r k => X (ix4 b n r k)) (fun f k => W1 (ix2 f k)) (fun f => B1 (ix1 f)) i j f
            - Cert.Spec.muRef (fun r k => X (ix4 b n r k)) (fun f k => W1 (ix2 f k)) (fun f => B1 (ix1 f)) i j) : ℝ) : EReal) := by
  rw [val_main_v36_apply, val_main_v35_apply, val_main_v34_apply]
  have h1 : idx_main_v34 (ix5 b n i j f) = ix5 b n i j (0 : Fin 1) :=
    funext fun a => Fin.ext (by
      match a with | ⟨0, _⟩ => rfl | ⟨1, _⟩ => rfl | ⟨2, _⟩ => rfl | ⟨3, _⟩ => rfl | ⟨4, _⟩ => rfl)
  rw [h1, h_stage, mu_stage, Ideal.mulf_def, Ideal.subf_def, ← EReal.coe_sub, ← EReal.coe_mul]

/-- The row variance: the mean of the squared deviations. -/
theorem var_stage (b : Fin 4) (n : Fin 8) (i j : Fin 64) :
    val_main_v40 (F := Ideal) (fun a => ((X a : ℝ) : EReal)) (fun a => ((W1 a : ℝ) : EReal))
        (fun a => ((B1 a : ℝ) : EReal)) (ix5 b n i j (0 : Fin 1))
      = ((Cert.Spec.varRef (fun r k => X (ix4 b n r k)) (fun f k => W1 (ix2 f k)) (fun f => B1 (ix1 f)) i j : ℝ) : EReal) := by
  rw [val_main_v40_apply, val_main_v38_apply, val_main_v37_apply, val_main_v39_apply, val_main_cst_4_apply,
    val_main_cst_3_apply]
  have hidx : ∀ k : Fin 128, idx_main_v37 (idx_main_v38 (ix5 b n i j (0 : Fin 1))) k = ix5 b n i j k := fun k =>
    funext fun a => Fin.ext (by
      match a with | ⟨0, _⟩ => rfl | ⟨1, _⟩ => rfl | ⟨2, _⟩ => rfl | ⟨3, _⟩ => rfl | ⟨4, _⟩ => rfl)
  simp only [hidx, sq_stage X W1 B1, Ideal.hostDivf_def, Ideal.ofBits_def, Cert.Consts.ofBits_zero,
    Cert.Consts.ofBits_128, zero_add]
  rw [Ideal.div_coe (by norm_num : (128 : ℝ) ≠ 0), Cert.Spec.coe_sum, ← EReal.coe_mul]
  refine congrArg _ ?_
  simp only [Cert.Spec.varRef]
  rw [one_div, div_eq_mul_inv]

/-! ### The normalised value -/

/-- The deviation from the row mean divided by the standard deviation; the square root's argument is positive. -/
theorem norm_stage (b : Fin 4) (n : Fin 8) (i j : Fin 64) (f : Fin 128) :
    val_main_v47 (F := Ideal) (fun a => ((X a : ℝ) : EReal)) (fun a => ((W1 a : ℝ) : EReal))
        (fun a => ((B1 a : ℝ) : EReal)) (ix5 b n i j f)
      = (((Cert.Spec.hRef (fun r k => X (ix4 b n r k)) (fun f k => W1 (ix2 f k)) (fun f => B1 (ix1 f)) i j f
            - Cert.Spec.muRef (fun r k => X (ix4 b n r k)) (fun f k => W1 (ix2 f k)) (fun f => B1 (ix1 f)) i j)
          / Real.sqrt (Cert.Spec.varRef (fun r k => X (ix4 b n r k)) (fun f k => W1 (ix2 f k)) (fun f => B1 (ix1 f)) i j
            + Cert.Consts.epsR) : ℝ) : EReal) := by
  rw [val_main_v47_apply, val_main_v42_apply, val_main_v41_apply, val_main_v46_apply, val_main_v45_apply,
    val_main_v44_apply, val_main_v43_apply, val_main_cst_5_apply]
  have h1 : idx_main_v41 (ix5 b n i j f) = ix5 b n i j (0 : Fin 1) :=
    funext fun a => Fin.ext (by
      match a with | ⟨0, _⟩ => rfl | ⟨1, _⟩ => rfl | ⟨2, _⟩ => rfl | ⟨3, _⟩ => rfl | ⟨4, _⟩ => rfl)
  have h2 : idx_main_v46 (ix5 b n i j f) = ix5 b n i j (0 : Fin 1) :=
    funext fun a => Fin.ext (by
      match a with | ⟨0, _⟩ => rfl | ⟨1, _⟩ => rfl | ⟨2, _⟩ => rfl | ⟨3, _⟩ => rfl | ⟨4, _⟩ => rfl)
  have hpos := var_eps_pos (fun r k => X (ix4 b n r k)) (fun f k => W1 (ix2 f k)) (fun f => B1 (ix1 f)) i j
  rw [h1, h2, h_stage, mu_stage, var_stage, Ideal.hostDivf_def, Ideal.subf_def, Ideal.addf_def,
    Ideal.hostUnary_sqrt_def, Ideal.ofBits_def, Cert.Consts.ofBits_eps, ← EReal.coe_sub, ← EReal.coe_add,
    Ideal.sqrt_coe, if_neg (not_lt.2 hpos.le), Ideal.div_coe (Real.sqrt_ne_zero'.2 hpos), ← EReal.coe_mul]
  refine congrArg _ ?_
  rw [one_div, div_eq_mul_inv]

end

section
variable (X : S4x8x64x128.Idx → ℝ) (W1 : S128x640.Idx → ℝ) (B1 G Be Bp : S128.Idx → ℝ)

/-! ### Scale, shift, positive part, diagonal bias -/

/-- The normalised value scaled and shifted feature by feature. -/
theorem affine_stage (b : Fin 4) (n : Fin 8) (i j : Fin 64) (f : Fin 128) :
    val_main_v53 (F := Ideal) (fun a => ((X a : ℝ) : EReal)) (fun a => ((W1 a : ℝ) : EReal))
        (fun a => ((B1 a : ℝ) : EReal)) (fun a => ((G a : ℝ) : EReal)) (fun a => ((Be a : ℝ) : EReal)) (ix5 b n i j f)
      = (((Cert.Spec.hRef (fun r k => X (ix4 b n r k)) (fun f k => W1 (ix2 f k)) (fun f => B1 (ix1 f)) i j f - Cert.Spec.muRef (fun r k => X (ix4 b n r k)) (fun f k => W1 (ix2 f k)) (fun f => B1 (ix1 f)) i j)
          / Real.sqrt (Cert.Spec.varRef (fun r k => X (ix4 b n r k)) (fun f k => W1 (ix2 f k)) (fun f => B1 (ix1 f)) i j + Cert.Consts.epsR) * G (ix1 f) + Be (ix1 f) : ℝ) : EReal) := by
  rw [val_main_v53_apply, val_main_v50_apply, val_main_v49_apply, val_main_v48_apply, val_main_v52_apply,
    val_main_v51_apply, norm_stage]
  have h1 : idx_main_v48 (idx_main_v49 (ix5 b n i j f)) = ix1 f :=
    funext fun a => Fin.ext (by match a with | ⟨0, _⟩ => rfl)
  have h2 : idx_main_v51 (idx_main_v52 (ix5 b n i j f)) = ix1 f :=
    funext fun a => Fin.ext (by match a with | ⟨0, _⟩ => rfl)
  rw [h1, h2, Ideal.addf_def, Ideal.mulf_def, ← EReal.coe_mul, ← EReal.coe_add]

/-- The positive part plus the bias carried by the diagonal. -/
theorem act_stage (b : Fin 4) (n : Fin 8) (i j : Fin 64) (f : Fin 128) :
    val_main_v61 (F := Ideal) (fun a => ((X a : ℝ) : EReal)) (fun a => ((W1 a : ℝ) : EReal))
        (fun a => ((B1 a : ℝ) : EReal)) (fun a => ((G a : ℝ) : EReal)) (fun a => ((Be a : ℝ) : EReal))
        (fun a => ((Bp a : ℝ) : EReal)) (ix5 b n i j f)
      = ((Cert.Spec.actRef (fun r k => X (ix4 b n r k)) (fun f k => W1 (ix2 f k)) (fun f => B1 (ix1 f)) (fun f => G (ix1 f)) (fun f => Be (ix1 f)) (fun f => Bp (ix1 f))
          Cert.Consts.epsR i j f : ℝ) : EReal) := by
  rw [val_main_v61_apply, val_main_v54_apply, val_main_call0_v0_apply, val_main_call0_cst_apply, val_main_v60_apply,
    val_main_v59_apply, val_main_v58_apply, val_main_v56_apply, val_main_v55_apply, val_main_v57_apply, affine_stage]
  have h1 : idx_main_v55 (idx_main_v56 (idx_main_v59 (idx_main_v60 (ix5 b n i j f)))) = ix1 f :=
    funext fun a => Fin.ext (by match a with | ⟨0, _⟩ => rfl)
  have h2 : idx_main_v57 (idx_main_v59 (idx_main_v60 (ix5 b n i j f))) = ix3 i j (0 : Fin 1) :=
    funext fun a => Fin.ext (by match a with | ⟨0, _⟩ => rfl | ⟨1, _⟩ => rfl | ⟨2, _⟩ => rfl)
  rw [h1, h2, mask3, Ideal.addf_def, Ideal.mulf_def, Ideal.maximumf_def, Ideal.ofBits_def, Cert.Consts.ofBits_zero,
    ← EReal.coe_zero, ← coe_max, ← EReal.coe_mul, ← EReal.coe_add]
  rfl

end

section

/-! ### The second contraction and its bias: the reference's result -/

/-- The reference's result at `(b, n, i, j, d)` is the specification of the slice `(b, n)` at `(i, j, d)`. -/
theorem ref_value (X : S4x8x64x128.Idx → ℝ) (W1 : S128x640.Idx → ℝ) (B1 G Be Bp : S128.Idx → ℝ)
    (W2 : S128x128.Idx → ℝ) (B2 : S128.Idx → ℝ) (b : Fin 4) (n : Fin 8) (i j : Fin 64) (d : Fin 128) :
    Cert.ReferenceIdeal.Read.val_main_v65 (F := Ideal) (fun a => ((X a : ℝ) : EReal)) (fun a => ((W1 a : ℝ) : EReal))
        (fun a => ((B1 a : ℝ) : EReal)) (fun a => ((G a : ℝ) : EReal)) (fun a => ((Be a : ℝ) : EReal))
        (fun a => ((Bp a : ℝ) : EReal)) (fun a => ((W2 a : ℝ) : EReal)) (fun a => ((B2 a : ℝ) : EReal)) (ix5 b n i j d)
      = ((Cert.Spec.outRef (fun r k => X (ix4 b n r k)) (fun f k => W1 (ix2 f k)) (fun f => B1 (ix1 f))
          (fun f => G (ix1 f)) (fun f => Be (ix1 f)) (fun f => Bp (ix1 f)) (fun d' f => W2 (ix2 d' f))
          (fun d' => B2 (ix1 d')) Cert.Consts.epsR i j d : ℝ) : EReal) := by
  rw [val_main_v65_apply, val_main_v62_apply, val_main_v64_apply, val_main_v63_apply]
  have hl : ∀ k : Fin 128, lidx_main_v62 (ix5 b n i j d) k = ix5 b n i j k := fun k =>
    funext fun a => Fin.ext (by
      match a with | ⟨0, _⟩ => rfl | ⟨1, _⟩ => rfl | ⟨2, _⟩ => rfl | ⟨3, _⟩ => rfl | ⟨4, _⟩ => rfl)
  have hr : ∀ k : Fin 128, ridx_main_v62 (ix5 b n i j d) k = ix2 d k := fun k =>
    funext fun a => Fin.ext (by match a with | ⟨0, _⟩ => rfl | ⟨1, _⟩ => rfl)
  have hb : idx_main_v63 (idx_main_v64 (ix5 b n i j d)) = ix1 d :=
    funext fun a => Fin.ext (by match a with | ⟨0, _⟩ => rfl)
  simp only [hl, hr, hb, act_stage X W1 B1 G Be Bp]
  simp only [Ideal.addf_def, ← EReal.coe_mul, Cert.Spec.coe_sum, ← EReal.coe_add]
  rfl

end

end Cert.RefLeg

end
-- ==== Proof.Bridge.lean ====
/-
  Under the precondition (every float input finite) the block the idealized kernel writes at grid point t is, entry by
  entry, the reference's result at the slice (t / 8, t % 8): the kernel's block is the specification's rank-structured form
  of real arrays, the reference's result is its as-written form of the same arrays, and over the reals the two forms
  are one function (the variance identity E h² − (E h)² = E (h − E h)², the five-block contraction collapsed by
  linearity, the quotient by a positive square root as a product with its inverse).
-/
import proofs.«154938_j27951647162476_2_alg».proof.Defs
import proofs.«154938_j27951647162476_2_alg».proof.Proof.Gen.Pre_finite_inputs
import proofs.«154938_j27951647162476_2_alg».proof.Proof.Finite
import proofs.«154938_j27951647162476_2_alg».proof.Proof.KerRun
import proofs.«154938_j27951647162476_2_alg».proof.Proof.KerOut
import proofs.«154938_j27951647162476_2_alg».proof.Proof.Algebra
import proofs.«154938_j27951647162476_2_alg».proof.Proof.RefLeg

noncomputable section

namespace Cert.Bridge

open Cert.KernelIdeal Cert.KernelIdeal.Gen Idealize.ShloMosaic Idealize.ShloMosaic.ValueIdx Idealize.SL.Sem

/-- The reference's result term on the kernel program's eight argument arrays of core c. -/
def refOn (m : (ℓ : Loc nD τ sig) → Buf (Elt Ideal) ℓ) (c : Dev nD) : Cert.ReferenceIdeal.S4x8x64x64x128.Idx → EReal :=
  Cert.ReferenceIdeal.Read.val_main_v65 (F := Ideal)
    (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))

/-- The kernel's block at point t is the reference's result at the slice (t / 8, t % 8). -/
theorem block_eq_ref (m : (ℓ : Loc nD τ sig) → Buf (Elt Ideal) ℓ)
    (hpre : Cert.Pre_KernelIdeal (hPre_finite_inputs := Cert.Pre_finite_inputs.Gen.facts) m)
    (c : Dev nD) (t : Fin cfg0.N) (i j : Fin 64) (d : Fin 128) :
    out0_8 (F := Ideal) (iblk m c 0 t) (iblk m c 1 t) (iblk m c 2 t) (iblk m c 3 t) (iblk m c 4 t) (iblk m c 5 t)
        (iblk m c 6 t) (iblk m c 7 t) (ix4 (0 : Fin 1) i j d)
      = refOn m c (ix5 (Cert.KerRun.tb t) (Cert.KerRun.tn t) i j d) := by
  obtain ⟨⟨X, hX⟩, ⟨W1, hW1⟩, ⟨B1, hB1⟩, ⟨Ga, hGa⟩, ⟨Be, hBe⟩, ⟨Bp, hBp⟩, ⟨W2, hW2⟩, ⟨B2, hB2⟩⟩ :=
    Cert.Finite.args_real m hpre c
  have hpos : 0 < Cert.Spec.varKer (fun r k => X (ix4 (Cert.KerRun.tb t) (Cert.KerRun.tn t) r k)) (fun f k => W1 (ix2 f k))
      (fun f => B1 (ix1 f)) i j + Cert.Consts.epsR := by
    rw [Cert.Spec.varKer_eq_varRef]
    exact add_pos_of_nonneg_of_pos (Cert.Spec.varRef_nonneg _ _ _ i j) Cert.Consts.epsR_pos
  have hk := Cert.KerOut.out_block (iblk m c 0 t) (iblk m c 1 t) (iblk m c 2 t) (iblk m c 3 t) (iblk m c 4 t) (iblk m c 5 t)
    (iblk m c 6 t) (iblk m c 7 t)
    (fun r k => X (ix4 (Cert.KerRun.tb t) (Cert.KerRun.tn t) r k)) (fun f k => W1 (ix2 f k)) (fun f => B1 (ix1 f))
    (fun f => Ga (ix1 f)) (fun f => Be (ix1 f)) (fun f => Bp (ix1 f)) (fun d' f => W2 (ix2 d' f)) (fun d' => B2 (ix1 d'))
    (fun r k => (Cert.KerRun.blk0 m c t r k).trans (congrFun hX _))
    (fun f k => (Cert.KerRun.blk1 m c t f k).trans (congrFun hW1 _))
    (fun u f => (Cert.KerRun.blk2 m c t u f).trans (congrFun hB1 _))
    (fun u f => (Cert.KerRun.blk3 m c t u f).trans (congrFun hGa _))
    (fun u f => (Cert.KerRun.blk4 m c t u f).trans (congrFun hBe _))
    (fun u f => (Cert.KerRun.blk5 m c t u f).trans (congrFun hBp _))
    (fun d' f => (Cert.KerRun.blk6 m c t d' f).trans (congrFun hW2 _))
    (fun u d' => (Cert.KerRun.blk7 m c t u d').trans (congrFun hB2 _))
    i j d hpos
  rw [hk, Cert.Spec.outKer_eq_outRef _ _ _ _ _ _ _ _ _ i j d Cert.Consts.epsR_pos,
    ← Cert.RefLeg.ref_value X W1 B1 Ga Be Bp W2 B2 (Cert.KerRun.tb t) (Cert.KerRun.tn t) i j d]
  unfold refOn
  rw [hX, hW1, hB1, hGa, hBe, hBp, hW2, hB2]

end Cert.Bridge

end
-- ==== Proof.KerTail.lean ====
/-
  The kernel's program as a whole: from what the pipelined region leaves at each of its 32 grid points to the array
  the program returns.

  At grid point `t` the region writes block `t` — one row `[1, 64, 64, 128]` — of a `[32, 64, 64, 128]` array; the
  32 rows tile that array, and the program finally reshapes it to `[4, 8, 64, 64, 128]`, row `8 b + n` becoming the
  slice `(b, n)`. So if, at every point `t`, what the body leaves at `(0, i, j, d)` of its block is
  `G (t / 8, t % 8, i, j, d)` for one function `G` of the result's index, then every run of the program ends with the
  result array equal to `G` and the argument arrays as they were.
-/
import proofs.«154938_j27951647162476_2_alg».proof.Proof.Gen.KernelIdeal.Frame
import Idealize.ShloMosaic.Lib.Pipeline.Value
import Idealize.ShloMosaic.Lib.ValueLayout
import Idealize.ShloMosaic.Lib.StableHlo.Run
import Idealize.ShloMosaic.Lib.ValueIdx

noncomputable section

namespace Cert.KerTail

open Cert.KernelIdeal Cert.KernelIdeal.Gen Idealize.ShloMosaic Idealize.ShloMosaic.ValueIdx Idealize.SL.Sem
open Idealize.ShloMosaic.Pipeline (Dat)

/-! ## Grid points and slices -/

/-- The grid has 32 points. -/
theorem lt32 (t : Fin cfg0.N) : t.val < 32 := by
  have h := t.isLt
  have hN : cfg0.N = 32 := N_0
  omega

/-- The first leading coordinate of grid point `t`'s slice: the quotient by eight. -/
def tb (t : Fin cfg0.N) : Fin 4 := ⟨t.val / 8, by have h := lt32 t; omega⟩
/-- The second: the remainder. -/
def tn (t : Fin cfg0.N) : Fin 8 := ⟨t.val % 8, by omega⟩

/-- A `[4, 8, 64, 64, 128]` array laid out as 32 rows: row `r` is the slice `(r / 8, r % 8)`. -/
def rows (G : S4x8x64x64x128.Idx → EReal) : S32x64x64x128.Idx → EReal := fun a =>
  G (ix5 (⟨(a 0).val / 8, by have h : (a 0).val < 32 := (a 0).isLt; omega⟩ : Fin 4)
    (⟨(a 0).val % 8, by omega⟩ : Fin 8) (⟨(a 1).val, (a 1).isLt⟩ : Fin 64) (⟨(a 2).val, (a 2).isLt⟩ : Fin 64)
    (⟨(a 3).val, (a 3).isLt⟩ : Fin 128))

/-- The output window's block index at point `t` is `(t, 0, 0, 0)`. -/
theorem idx8 : ∀ t : Fin cfg0.N, win0_8.index t (0 : Fin 4) = t.val ∧ win0_8.index t (1 : Fin 4) = 0
    ∧ win0_8.index t (2 : Fin 4) = 0 ∧ win0_8.index t (3 : Fin 4) = 0 :=
  (by decide +kernel : ∀ t : Fin grid0.N, _)

section
variable (m : (ℓ : Loc nD τ sig) → Buf (Elt Ideal) ℓ) (ρ : Dev nD → PrngReg)
  (sb : Fin cfg0.N → Fin 4) (sn : Fin cfg0.N → Fin 8)
  (hsb : ∀ t, (sb t).val = t.val / 8) (hsn : ∀ t, (sn t).val = t.val % 8)
  (G : (c : Dev nD) → S4x8x64x64x128.Idx → EReal)
  (hG : ∀ (c : Dev nD) (t : Fin cfg0.N) (i j : Fin 64) (d : Fin 128),
    out0_8 (F := Ideal) (iblk m c 0 t) (iblk m c 1 t) (iblk m c 2 t) (iblk m c 3 t) (iblk m c 4 t) (iblk m c 5 t) (iblk m c 6 t) (iblk m c 7 t) (ix4 (0 : Fin 1) i j d) = G c (ix5 (sb t) (sn t) i j d))

/-! ## From the blocks to the array -/

include hsb hsn hG in
/-- What point `t` writes back is block `t` of the 32-row layout of `G`. -/
theorem flushed_eq (c : Dev nD) (t : Fin cfg0.N) :
    (dats m 0 c).flushed 8 t = ((cfg0.win 8).blk t).view.read (Elt Ideal) (rows (G c)) := by
  show (cfg0.win 8).cut (grid0.coords t) ((dats m 0 c).after 8 t) = _
  rw [after0_8]
  obtain ⟨e0, e1, e2, e3⟩ := idx8 t
  refine funext fun (y : S1x64x64x128.Idx) => ?_
  obtain ⟨u, i, j, d, rfl⟩ : ∃ (u : Fin 1) (i j : Fin 64) (d : Fin 128), y = ix4 u i j d :=
    ⟨y 0, y 1, y 2, y 3, eq_ix4 y⟩
  obtain rfl : u = 0 := Subsingleton.elim _ _
  show out0_8 (F := Ideal) (iblk m c 0 t) (iblk m c 1 t) (iblk m c 2 t) (iblk m c 3 t) (iblk m c 4 t) (iblk m c 5 t) (iblk m c 6 t) (iblk m c 7 t) (ix4 (0 : Fin 1) i j d)
    = rows (G c) (((cfg0.win 8).blk t).view.emb (ix4 (0 : Fin 1) i j d))
  refine (hG c t i j d).trans ?_
  unfold rows
  refine congrArg (G c) ?_
  funext a; apply Fin.ext
  have hb := hsb t
  have hn := hsn t
  match a with
  | ⟨0, _⟩ => show (sb t).val = (win0_8.index t (0 : Fin 4) * 1 + 1 * 0) / 8; omega
  | ⟨1, _⟩ => show (sn t).val = (win0_8.index t (0 : Fin 4) * 1 + 1 * 0) % 8; omega
  | ⟨2, _⟩ => show i.val = win0_8.index t (1 : Fin 4) * 64 + 1 * i.val; omega
  | ⟨3, _⟩ => show j.val = win0_8.index t (2 : Fin 4) * 64 + 1 * j.val; omega
  | ⟨4, _⟩ => show d.val = win0_8.index t (3 : Fin 4) * 128 + 1 * d.val; omega

/-- An index of the 32-row array is in point `t`'s block iff each coordinate is in the block's range on its axis. -/
theorem mem_blk8 (t : Fin cfg0.N) (i : S32x64x64x128.Idx) :
    i ∈ ((cfg0.win 8).blk t).view.set ↔ ∀ a : Fin 4, win0_8.index t a * S1x64x64x128.size a ≤ (i a).val
      ∧ (i a).val < win0_8.index t a * S1x64x64x128.size a + S1x64x64x128.size a := by
  show i ∈ ((View.whole main_v8).slice (win0_8.rect t)).set ↔ _
  rw [View.set_slice_whole, Rect.mem_set_unit]
  exact Iff.rfl

/-- Row `r` of the 32-row array is covered by point `r`: the 32 blocks tile the array. -/
theorem cover8 (i : S32x64x64x128.Idx) :
    ∃ t : Fin cfg0.N, (cfg0.win 8).flush t = true ∧ i ∈ ((cfg0.win 8).blk t).view.set := by
  have h0 : (i 0).val < 32 := (i 0).isLt
  have h1 : (i 1).val < 64 := (i 1).isLt
  have h2 : (i 2).val < 64 := (i 2).isLt
  have h3 : (i 3).val < 128 := (i 3).isLt
  obtain ⟨t, ht⟩ : ∃ t : Fin cfg0.N, t.val = (i 0).val :=
    ⟨⟨(i 0).val, by have hN : cfg0.N = 32 := N_0; omega⟩, rfl⟩
  obtain ⟨e0, e1, e2, e3⟩ := idx8 t
  refine ⟨t, flush0_8 t, ?_⟩
  rw [mem_blk8]
  intro a
  match a with
  | ⟨0, _⟩ =>
    show win0_8.index t (0 : Fin 4) * 1 ≤ (i 0).val ∧ (i 0).val < win0_8.index t (0 : Fin 4) * 1 + 1; omega
  | ⟨1, _⟩ =>
    show win0_8.index t (1 : Fin 4) * 64 ≤ (i 1).val ∧ (i 1).val < win0_8.index t (1 : Fin 4) * 64 + 64; omega
  | ⟨2, _⟩ =>
    show win0_8.index t (2 : Fin 4) * 64 ≤ (i 2).val ∧ (i 2).val < win0_8.index t (2 : Fin 4) * 64 + 64; omega
  | ⟨3, _⟩ =>
    show win0_8.index t (3 : Fin 4) * 128 ≤ (i 3).val ∧ (i 3).val < win0_8.index t (3 : Fin 4) * 128 + 128; omega

include hsb hsn hG in
/-- The 32-row array after the region: the 32-row layout of `G`. -/
theorem final (c : Dev nD) : (dats m 0 c).arrAt 8 cfg0.N = rows (G c) :=
  (dats m 0 c).arrAt_eq_of_cover 8 (rows (G c)) (fun t _ => flushed_eq m sb sn hsb hsn G hG c t) cover8

/-! ## The reshape after the region -/

/-- The 32-row layout of `G` reshaped to `[4, 8, 64, 64, 128]` is `G`: row `8 b + n` is the slice `(b, n)`. -/
theorem reshape_rows (H : S4x8x64x64x128.Idx → EReal) :
    shapeCast S4x8x64x64x128 (rows H) shapeCasts_S32x64x64x128_S4x8x64x64x128 = H := by
  funext q
  obtain ⟨b, n, i, j, d, rfl⟩ : ∃ (b : Fin 4) (n : Fin 8) (i j : Fin 64) (d : Fin 128), q = ix5 b n i j d :=
    ⟨q 0, q 1, q 2, q 3, q 4, eq_ix5 q⟩
  have hb := b.isLt
  have hn := n.isLt
  have hk : (S32x64x64x128.rowMajor (ix4 (⟨8 * b.val + n.val, by omega⟩ : Fin 32) i j d)).val
      = (S4x8x64x64x128.rowMajor (ix5 b n i j d)).val := by
    rw [Shape.rowMajor_val_four, Shape.rowMajor_val_five]
    show (((8 * b.val + n.val) * 64 + i.val) * 64 + j.val) * 128 + d.val
      = (((b.val * 8 + n.val) * 64 + i.val) * 64 + j.val) * 128 + d.val
    omega
  refine (shapeCast_apply _ _ _ _ hk).trans ?_
  unfold rows
  refine congrArg H ?_
  funext a; apply Fin.ext
  match a with
  | ⟨0, _⟩ => show (8 * b.val + n.val) / 8 = b.val; omega
  | ⟨1, _⟩ => show (8 * b.val + n.val) % 8 = n.val; omega
  | ⟨2, _⟩ => rfl
  | ⟨3, _⟩ => rfl
  | ⟨4, _⟩ => rfl

include hsb hsn hG in
/-- What the program's last line leaves in the result array: `G`. -/
theorem tail_v9 (c : Dev nD) :
    Pipeline.afterTail₀ cfgs (dats m) 0 (V0 m) [hostOps1] c main_v9 = G c := by
  unfold Pipeline.afterTail₀
  show StableHlo.after hostOps1 _ (Proc.devRef .tc main_v9) = _
  after_results
  have hW : Pipeline.withArrays (cfgs 0).spec c (V0 m c) (fun w => (dats m 0 c).arrAt w (cfgs 0).N)
      (Proc.devRef .tc main_v8) = rows (G c) :=
    (Pipeline.withArrays_arr spec0 launch0.win.arr_inj c _ _ 8).trans (final m sb sn hsb hsn G hG c)
  show shapeCast S4x8x64x64x128 (Pipeline.withArrays (cfgs 0).spec c (V0 m c)
      (fun w => (dats m 0 c).arrAt w (cfgs 0).N) (Proc.devRef .tc main_v8))
      shapeCasts_S32x64x64x128_S4x8x64x64x128 = G c
  exact (congrArg (fun x => shapeCast S4x8x64x64x128 x shapeCasts_S32x64x64x128_S4x8x64x64x128) hW).trans
    (reshape_rows (G c))

/-! ## The run -/

include hsb hsn hG in
/-- Every run of the program ends with the result array equal to `G` and the argument arrays as they were. -/
theorem ker_run_of : θ_run defs (onTc (τ := τ) (main (F := Ideal))) ⟨m, fun _ => 0, ρ⟩ (fun r => ∀ c : Dev nD,
      r.2.mem ((c.tc : Thread nD τ).loc main_v9) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v9 (Pipeline.mem_restRefs_of main_v9 (by decide) (by decide))).trans
        (tail_v9 m sb sn hsb hsn G hG c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end

/-! ## The run, at this module's own quotient and remainder -/

/-- The run stated with `tb` and `tn`: if at every point `t` the body leaves `G (t / 8, t % 8, i, j, d)` at
    `(0, i, j, d)` of the output block, every run ends with the result array equal to `G`, the arguments unchanged. -/
theorem ker_run (m : (ℓ : Loc nD τ sig) → Buf (Elt Ideal) ℓ) (ρ : Dev nD → PrngReg)
    (G : (c : Dev nD) → S4x8x64x64x128.Idx → EReal)
    (hG : ∀ (c : Dev nD) (t : Fin cfg0.N) (i j : Fin 64) (d : Fin 128),
      out0_8 (F := Ideal) (iblk m c 0 t) (iblk m c 1 t) (iblk m c 2 t) (iblk m c 3 t) (iblk m c 4 t) (iblk m c 5 t) (iblk m c 6 t) (iblk m c 7 t) (ix4 (0 : Fin 1) i j d) = G c (ix5 (tb t) (tn t) i j d)) :
    θ_run defs (onTc (τ := τ) (main (F := Ideal))) ⟨m, fun _ => 0, ρ⟩ (fun r => ∀ c : Dev nD,
      r.2.mem ((c.tc : Thread nD τ).loc main_v9) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  ker_run_of m ρ tb tn (fun _ => rfl) (fun _ => rfl) G hG

end Cert.KerTail

end
-- ==== Proof.lean ====
/-
  The certificate of a fused layer: a 64 × 128 matrix x per slice (32 slices), lifted to a 64 × 64 × 640 tensor of
  five blocks [x i · e i j, x i, x j, mean · e i j, mean] (e the diagonal mask, mean the column means of x),
  contracted against W1 with a bias, layer-normalised over its last axis of 128, passed through max · 0, given the
  diagonal bias bias_p · e and contracted against W2 with a bias: a [4, 8, 64, 64, 128] array.

  The reference computes this as written.  The kernel, one slice per grid point, never builds the lifted tensor: by
  linearity the first contraction is e i j · A i + P i + Q j for three 64 × 128 matrices, the mean of a row of 128
  is read off the row sums of A, P, Q, and its variance is taken as E h² − (E h)² from those row sums and the one
  cross term P Qᵀ; it multiplies by the inverse square root where the reference divides by the square root, and by
  1/128 where the reference divides by 128.  Over the extended reals a change of float format is the identity, and
  every input is finite, so both programs compute with reals: the two spellings are one function there (the variance
  is a mean of squares, hence non-negative, and the small positive constant added to it keeps the square root away
  from zero).  The kernel's blocks tile the output, whose final reshape regroups row 8 b + n as the slice (b, n).

  The three programs run without fault and leave their arguments unchanged; the idealized kernel is the kernel's
  own text (nothing was rewritten); and from memories agreeing on the eight arguments the idealized kernel and the
  idealized reference end with the same result, entry by entry.
-/
import proofs.«154938_j27951647162476_2_alg».proof.Defs
import proofs.«154938_j27951647162476_2_alg».proof.Proof.Gen.Kernel
import proofs.«154938_j27951647162476_2_alg».proof.Proof.Gen.Kernel.Skeleton
import proofs.«154938_j27951647162476_2_alg».proof.Proof.Gen.Kernel.Launch
import proofs.«154938_j27951647162476_2_alg».proof.Proof.Gen.Kernel.Points
import proofs.«154938_j27951647162476_2_alg».proof.Proof.Gen.Kernel.Frame
import proofs.«154938_j27951647162476_2_alg».proof.Proof.Gen.KernelIdeal
import proofs.«154938_j27951647162476_2_alg».proof.Proof.Gen.KernelIdeal.Skeleton
import proofs.«154938_j27951647162476_2_alg».proof.Proof.Gen.KernelIdeal.Launch
import proofs.«154938_j27951647162476_2_alg».proof.Proof.Gen.KernelIdeal.Points
import proofs.«154938_j27951647162476_2_alg».proof.Proof.Gen.KernelIdeal.Frame
import proofs.«154938_j27951647162476_2_alg».proof.Proof.Gen.ReferenceIdeal
import proofs.«154938_j27951647162476_2_alg».proof.Proof.Gen.ReferenceIdeal.Run
import proofs.«154938_j27951647162476_2_alg».proof.Proof.Gen.ReferenceIdeal.Read
import proofs.«154938_j27951647162476_2_alg».proof.Proof.Gen.Pre_finite_inputs
import proofs.«154938_j27951647162476_2_alg».proof.Proof.Claims
import proofs.«154938_j27951647162476_2_alg».proof.Proof.Bridge
import proofs.«154938_j27951647162476_2_alg».proof.Proof.KerRun
import proofs.«154938_j27951647162476_2_alg».proof.Proof.KerTail
import Idealize.ShloMosaic.Adequacy
import Idealize.ShloMosaic.Init

noncomputable section

namespace Cert.Proof

open Idealize.ShloMosaic Idealize.SL.Sem Cert.Kernel

/-- The five claims.  The kernel's run ends with its result array equal to the reference's composed function of the
    kernel's own arguments: at every grid point the block it writes is that function at the point's slice. -/
theorem claim : Cert.Claim :=
  Cert.Proof.Claims.claim_of fun m ρ hpre =>
    Cert.KerTail.ker_run_of m ρ Cert.KerRun.tb Cert.KerRun.tn (fun _ => rfl) (fun _ => rfl)
      (Cert.Proof.Claims.refOf m) (fun c t i j d => Cert.Bridge.block_eq_ref m hpre c t i j d)

end Cert.Proof

end
